-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x67108864 : Shape := ⟨2, ![1, 67108864]⟩
abbrev S4x4 : Shape := ⟨2, ![4, 4]⟩
abbrev S_ : Shape := ⟨0, ![]⟩

class Facts : Prop where
  bcast_S_S1x67108864 : S_.BroadcastsInDim S1x67108864 (![] : Fin 0 → Fin S1x67108864.rank)
  reducesTo_S1x67108864_S_d0_1 : S1x67108864.ReducesTo [0, 1] S_
  h_S_ : 0 < S_.numel
  bcast_S_S4x4 : S_.BroadcastsInDim S4x4 (![] : Fin 0 → Fin S4x4.rank)
  reducesTo_S4x4_S_d0_1 : S4x4.ReducesTo [0, 1] S_

variable [Facts]

def fn {F : FTy → Type} [FloatOps F] (main_arg0 : FVec F S1x67108864 .f32) (main_arg1 : FVec F S4x4 .f32) : IVec S_ 1 :=
  let main_v0 : FVec F S1x67108864 .f32 := Host.absf main_arg0
  let main_cst : FVec F S_ .f32 := constant S_ .f32 0x7F800000#32
  let main_v1 : FVec F S1x67108864 .f32 := broadcastInDim S1x67108864 ![] bcast_S_S1x67108864 main_cst
  let main_v2 : IVec S1x67108864 1 := cmpf .olt main_v0 main_v1
  let main_c : IVec S_ 1 := constantI S_ 1 1#1
  let main_v3 : IVec S_ 1 := (fun x v => Host.reduce IntOp.andi x v reducesTo_S1x67108864_S_d0_1 h_S_) main_v2 main_c
  let main_v4 : FVec F S4x4 .f32 := Host.absf main_arg1
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  main_v8
-- ==== Kernel.lean ====
abbrev S1x67108864 : Shape := ⟨2, ![1, 67108864]⟩
abbrev S4x4 : Shape := ⟨2, ![4, 4]⟩
abbrev S8x16384x512 : Shape := ⟨3, ![8, 16384, 512]⟩
abbrev S8x512x512 : Shape := ⟨3, ![8, 512, 512]⟩
abbrev S1x512x512 : Shape := ⟨3, ![1, 512, 512]⟩
abbrev S512x512 : Shape := ⟨2, ![512, 512]⟩
abbrev S1x1 : Shape := ⟨2, ![1, 1]⟩
abbrev S67108864x1 : Shape := ⟨2, ![67108864, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x67108864, .f32⟩
  | .hbm, ⟨1, _⟩ => ⟨S4x4, .f32⟩
  | .hbm, ⟨2, _⟩ => ⟨S8x16384x512, .f32⟩
  | .hbm, ⟨3, _⟩ => ⟨S8x16384x512, .f32⟩
  | .hbm, ⟨4, _⟩ => ⟨S67108864x1, .f32⟩
  | .local _ .vmem, ⟨0, _⟩ => ⟨S8x512x512, .f32⟩
  | .local _ .vmem, ⟨1, _⟩ => ⟨S8x512x512, .f32⟩
  | .local _ .vmem, ⟨2, _⟩ => ⟨S4x4, .f32⟩
  | .local _ .vmem, ⟨3, _⟩ => ⟨S8x512x512, .f32⟩
  | .local _ .vmem, ⟨4, _⟩ => ⟨S8x512x512, .f32⟩
  | _, _ => ⟨S1x67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x67108864_S8x16384x512 : S1x67108864.ShapeCasts S8x16384x512
  inb_S4x4_S4x4_0_0 : ∀ a, (![0, 0] : Fin 2 → Nat) a + S4x4.size a ≤ S4x4.size a
  h_S4x4 : 0 < S4x4.numel
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  shapeCasts_S512x512_S1x512x512 : S512x512.ShapeCasts S1x512x512
  inb_S8x512x512_S1x512x512_2_0_0 : ∀ a, (![2, 0, 0] : Fin 3 → Nat) a + S1x512x512.size a ≤ S8x512x512.size a
  inb_S8x512x512_S1x512x512_4_0_0 : ∀ a, (![4, 0, 0] : Fin 3 → Nat) a + S1x512x512.size a ≤ S8x512x512.size a
  inb_S8x512x512_S1x512x512_6_0_0 : ∀ a, (![6, 0, 0] : Fin 3 → Nat) a + S1x512x512.size a ≤ S8x512x512.size a
  slices_S4x4_o0_0_S1x1 : S4x4.Slices ![0, 0] S1x1
  inpos_S1x1_p0_0 : ∀ a, (![0, 0] : Fin 2 → Nat) a < S1x1.size a
  inb_S8x512x512_S1x512x512_1_0_0 : ∀ a, (![1, 0, 0] : Fin 3 → Nat) a + S1x512x512.size a ≤ S8x512x512.size a
  slices_S4x4_o0_1_S1x1 : S4x4.Slices ![0, 1] S1x1
  inb_S8x512x512_S1x512x512_3_0_0 : ∀ a, (![3, 0, 0] : Fin 3 → Nat) a + S1x512x512.size a ≤ S8x512x512.size a
  slices_S4x4_o0_2_S1x1 : S4x4.Slices ![0, 2] S1x1
  inb_S8x512x512_S1x512x512_5_0_0 : ∀ a, (![5, 0, 0] : Fin 3 → Nat) a + S1x512x512.size a ≤ S8x512x512.size a
  slices_S4x4_o0_3_S1x1 : S4x4.Slices ![0, 3] S1x1
  inb_S8x512x512_S1x512x512_7_0_0 : ∀ a, (![7, 0, 0] : Fin 3 → Nat) a + S1x512x512.size a ≤ S8x512x512.size a
  slices_S4x4_o1_0_S1x1 : S4x4.Slices ![1, 0] S1x1
  slices_S4x4_o1_1_S1x1 : S4x4.Slices ![1, 1] S1x1
  slices_S4x4_o1_2_S1x1 : S4x4.Slices ![1, 2] S1x1
  slices_S4x4_o1_3_S1x1 : S4x4.Slices ![1, 3] S1x1
  slices_S4x4_o2_0_S1x1 : S4x4.Slices ![2, 0] S1x1
  slices_S4x4_o2_1_S1x1 : S4x4.Slices ![2, 1] S1x1
  slices_S4x4_o2_2_S1x1 : S4x4.Slices ![2, 2] S1x1
  slices_S4x4_o2_3_S1x1 : S4x4.Slices ![2, 3] S1x1
  slices_S4x4_o3_0_S1x1 : S4x4.Slices ![3, 0] S1x1
  slices_S4x4_o3_1_S1x1 : S4x4.Slices ![3, 1] S1x1
  slices_S4x4_o3_2_S1x1 : S4x4.Slices ![3, 2] S1x1
  slices_S4x4_o3_3_S1x1 : S4x4.Slices ![3, 3] S1x1
  shapeCasts_S8x16384x512_S67108864x1 : S8x16384x512.ShapeCasts S67108864x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S8x16384x512.size a
  hwx0_0 : ∀ i : grid0.Coords, EltTy.bits .f32 = 32 ∨ (Rect.block (s := S8x16384x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4.size a ≤ S4x4.size a
  hwx0_1 : ∀ i : grid0.Coords, EltTy.bits .f32 = 32 ∨ (Rect.block (s := S4x4) S4x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S8x16384x512.size a
  hwx0_2 : ∀ i : grid0.Coords, EltTy.bits .f32 = 32 ∨ (Rect.block (s := S8x16384x512) S8x512x512.size (cc0_transform_2 i) (hinb0_2 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x67108864 : Shape := ⟨2, ![1, 67108864]⟩
abbrev S4x4 : Shape := ⟨2, ![4, 4]⟩
abbrev S1x2x2x2x2x2x2x2x2x2x2x2x2x2x2x2x2x2x2x2x2x2x2x2x2x2x2 : Shape := ⟨27, ![1, 2, 2, 2, 2, 2, 2, 2, 2, 2, 2, 2, 2, 2, 2, 2, 2, 2, 2, 2, 2, 2, 2, 2, 2, 2, 2]⟩
abbrev S2x2x1x2x2x2x2x2x2x2x2x2x2x2x2x2x2x2x2x2x2x2x2x2x2x2x2 : Shape := ⟨27, ![2, 2, 1, 2, 2, 2, 2, 2, 2, 2, 2, 2, 2, 2, 2, 2, 2, 2, 2, 2, 2, 2, 2, 2, 2, 2, 2]⟩
abbrev S4x8388608x2 : Shape := ⟨3, ![4, 8388608, 2]⟩
abbrev S4x8388608x1 : Shape := ⟨3, ![4, 8388608, 1]⟩
abbrev S4x8388608 : Shape := ⟨2, ![4, 8388608]⟩
abbrev S_ : Shape := ⟨0, ![]⟩
abbrev S1 : Shape := ⟨1, ![1]⟩
abbrev S67108864x1 : Shape := ⟨2, ![67108864, 1]⟩

abbrev nBuf : Space → Nat
  | .hbm => 14
  | .vmem => 0
  | .smem => 0
  | _ => 0

abbrev bufTy : (tb : Table) → Fin (tcTables nBuf tb) → BufTy
  | .hbm, ⟨0, _⟩ => ⟨S1x67108864, .f32⟩
  | .hbm, ⟨1, _⟩ => ⟨S4x4, .f32⟩
  | .hbm, ⟨2, _⟩ => ⟨S1x2x2x2x2x2x2x2x2x2x2x2x2x2x2x2x2x2x2x2x2x2x2x2x2x2x2, .f32⟩
  | .hbm, ⟨3, _⟩ => ⟨S2x2x1x2x2x2x2x2x2x2x2x2x2x2x2x2x2x2x2x2x2x2x2x2x2x2x2, .f32⟩
  | .hbm, ⟨4, _⟩ => ⟨S4x8388608x2, .f32⟩
  | .hbm, ⟨5, _⟩ => ⟨S4x8388608x1, .f32⟩
  | .hbm, ⟨6, _⟩ => ⟨S4x8388608, .f32⟩
  | .hbm, ⟨7, _⟩ => ⟨S4x8388608, .f32⟩
  | .hbm, ⟨8, _⟩ => ⟨S_, .i32⟩
  | .hbm, ⟨9, _⟩ => ⟨S1, .i32⟩
  | .hbm, ⟨10, _⟩ => ⟨S4x8388608x2, .f32⟩
  | .hbm, ⟨11, _⟩ => ⟨S2x2x1x2x2x2x2x2x2x2x2x2x2x2x2x2x2x2x2x2x2x2x2x2x2x2x2, .f32⟩
  | .hbm, ⟨12, _⟩ => ⟨S1x2x2x2x2x2x2x2x2x2x2x2x2x2x2x2x2x2x2x2x2x2x2x2x2x2x2, .f32⟩
  | .hbm, ⟨13, _⟩ => ⟨S67108864x1, .f32⟩
  | _, _ => ⟨S1x67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  shapeCasts_S1x67108864_S1x2x2x2x2x2x2x2x2x2x2x2x2x2x2x2x2x2x2x2x2x2x2x2x2x2x2 : S1x67108864.ShapeCasts S1x2x2x2x2x2x2x2x2x2x2x2x2x2x2x2x2x2x2x2x2x2x2x2x2x2x2
  transposes_S1x2x2x2x2x2x2x2x2x2x2x2x2x2x2x2x2x2x2x2x2x2x2x2x2x2x2_S2x2x1x2x2x2x2x2x2x2x2x2x2x2x2x2x2x2x2x2x2x2x2x2x2x2x2_1_2_0_4_5_6_7_8_9_10_11_12_13_14_15_16_17_18_19_20_21_22_23_24_25_26_3 : S1x2x2x2x2x2x2x2x2x2x2x2x2x2x2x2x2x2x2x2x2x2x2x2x2x2x2.Transposes [1, 2, 0, 4, 5, 6, 7, 8, 9, 10, 11, 12, 13, 14, 15, 16, 17, 18, 19, 20, 21, 22, 23, 24, 25, 26, 3] S2x2x1x2x2x2x2x2x2x2x2x2x2x2x2x2x2x2x2x2x2x2x2x2x2x2x2
  shapeCasts_S2x2x1x2x2x2x2x2x2x2x2x2x2x2x2x2x2x2x2x2x2x2x2x2x2x2x2_S4x8388608x2 : S2x2x1x2x2x2x2x2x2x2x2x2x2x2x2x2x2x2x2x2x2x2x2x2x2x2x2.ShapeCasts S4x8388608x2
  slices_S4x8388608x2_S4x8388608x1_0_0_1 : S4x8388608x2.Slices ![0, 0, 1] S4x8388608x1
  shapeCasts_S4x8388608x1_S4x8388608 : S4x8388608x1.ShapeCasts S4x8388608
  bcast_S_S1 : S_.BroadcastsInDim S1 (![] : Fin 0 → Fin S1.rank)
  shapeCasts_S4x8388608x2_S2x2x1x2x2x2x2x2x2x2x2x2x2x2x2x2x2x2x2x2x2x2x2x2x2x2x2 : S4x8388608x2.ShapeCasts S2x2x1x2x2x2x2x2x2x2x2x2x2x2x2x2x2x2x2x2x2x2x2x2x2x2x2
  transposes_S2x2x1x2x2x2x2x2x2x2x2x2x2x2x2x2x2x2x2x2x2x2x2x2x2x2x2_S1x2x2x2x2x2x2x2x2x2x2x2x2x2x2x2x2x2x2x2x2x2x2x2x2x2x2_2_0_1_26_3_4_5_6_7_8_9_10_11_12_13_14_15_16_17_18_19_20_21_22_23_24_25 : S2x2x1x2x2x2x2x2x2x2x2x2x2x2x2x2x2x2x2x2x2x2x2x2x2x2x2.Transposes [2, 0, 1, 26, 3, 4, 5, 6, 7, 8, 9, 10, 11, 12, 13, 14, 15, 16, 17, 18, 19, 20, 21, 22, 23, 24, 25] S1x2x2x2x2x2x2x2x2x2x2x2x2x2x2x2x2x2x2x2x2x2x2x2x2x2x2
  shapeCasts_S1x2x2x2x2x2x2x2x2x2x2x2x2x2x2x2x2x2x2x2x2x2x2x2x2x2x2_S67108864x1 : S1x2x2x2x2x2x2x2x2x2x2x2x2x2x2x2x2x2x2x2x2x2x2x2x2x2x2.ShapeCasts S67108864x1
  dot_S4x4_S4x8388608_S4x8388608_1_0_0_1_n_n_wf : DotDims.WF S4x4 S4x8388608 S4x8388608 [1] [0] [0] [1] [] []
  scatter_S4x8388608x2_S1_S4x8388608_01_2_2_0_wf : ScatterDims.WF S4x8388608x2 S1 S4x8388608 [0, 1] [2] [2] 0

variable [Facts₀]

def dot_S4x4_S4x8388608_S4x8388608_1_0_0_1_n_n : DotDims S4x4 S4x8388608 S4x8388608 where
  lhsContracting := [1]
  rhsContracting := [0]
  lhsNonContracting := [0]
  rhsNonContracting := [1]
  lhsBatch := []
  rhsBatch := []
  wf := dot_S4x4_S4x8388608_S4x8388608_1_0_0_1_n_n_wf
def scatter_S4x8388608x2_S1_S4x8388608_01_2_2_0 : ScatterDims S4x8388608x2 S1 S4x8388608 where
  updateWindowDims := [0, 1]
  insertedWindowDims := [2]
  scatterDimsToOperandDims := [2]
  indexVectorDim := 0
  wf := scatter_S4x8388608x2_S1_S4x8388608_01_2_2_0_wf

class Facts : Prop extends Facts₀ where

variable [Facts]
-- ==== Proof.LibRowMajorHorner.lean ====
/-
  Row-major positions in Horner form, at any rank.

  The row-major position of a multi-index `x` of sizes `d` is the mixed-radix number with digits `x 0, x 1, …`
  (most significant first) in the radices `d 0, d 1, …`. Evaluated by Horner's rule — start from an accumulator,
  and at each axis multiply by the axis' size and add the coordinate — it needs no product of trailing sizes, so at a
  literal shape of any rank it unfolds to one nested linear expression of the coordinates.
-/
import Idealize.ShloMosaic.Shape
import Mathlib.Algebra.BigOperators.Fin
import Mathlib.Tactic.Ring

namespace Idealize.ShloMosaic.Shape

/-- Horner's rule over the axes, leading axis first: the accumulator times the axis' size plus the coordinate. -/
def hornerPi : {n : Nat} → (d : Fin n → Nat) → ((a : Fin n) → Fin (d a)) → Nat → Nat
  | 0, _, _, acc => acc
  | _ + 1, d, x, acc => hornerPi (fun a => d a.succ) (fun a => x a.succ) (acc * d 0 + (x 0).val)

/-- Horner's rule from accumulator `acc` is `acc` shifted past all the axes, plus the row-major position. -/
theorem hornerPi_eq : {n : Nat} → (d : Fin n → Nat) → (x : (a : Fin n) → Fin (d a)) → (acc : Nat) →
    hornerPi d x acc = acc * (∏ a, d a) + (rowMajorPi d x).val
  | 0, d, x, acc => by
    rw [hornerPi, rowMajorPi_zero]; simp
  | n + 1, d, x, acc => by
    rw [hornerPi, hornerPi_eq, rowMajorPi_succ_val, Fin.prod_univ_succ]
    ring

/-- A shape's row-major position is Horner's rule from zero. -/
theorem rowMajor_val_horner (s : Shape) (i : s.Idx) : (s.rowMajor i).val = hornerPi s.size i 0 := by
  rw [hornerPi_eq, Nat.zero_mul, Nat.zero_add]; rfl

end Idealize.ShloMosaic.Shape
-- ==== Proof.GateBits.lean ====
/-
  The two axis permutations of a 26-qubit state vector, as permutations of the bits of the flat position.

  A state of 26 qubits is a vector of 2^26 amplitudes; viewed as the array `[1, 2, …, 2]` (a batch axis and one axis
  per qubit, qubit 0 first) the flat position's bit 25 − q is qubit q's coordinate. Moving the two target qubits
  (0, 1) to the front, the batch axis behind them and the control qubit (2) to the back gives the array
  `[2, 2, 1, 2, …, 2]`, whose flat position reads  t · 2^24 + r · 2 + c  with t the two target bits, r the 23 bits of
  qubits 3 … 25 and c the control bit, where the original position is  t · 2^24 + c · 2^23 + r.  So each of the two
  transposes (there, and back) moves ONE bit of the flat position past the 23 bits of r, and composed with the
  reshapes before and after it re-indexes a flat array by that bit move. The 23 bits never change their order: they
  enter both positions as the same number r, which is why no bit-level reasoning is needed beyond r < 2^23.
-/
import proofs.«137706_j22935125360825_2_alg».proof.Proof.LibRowMajorHorner
import Idealize.ShloMosaic.Lib.Pipeline.Value

set_option maxRecDepth 16384

noncomputable section

namespace Cert.GateBits

open Idealize.ShloMosaic

/-- The state as one axis per qubit behind the batch axis. -/
abbrev P27 : Shape := ⟨27, ![1, 2, 2, 2, 2, 2, 2, 2, 2, 2, 2, 2, 2, 2, 2, 2, 2, 2, 2, 2, 2, 2, 2, 2, 2, 2, 2]⟩
/-- The same with the target qubits in front and the control qubit last. -/
abbrev Q27 : Shape := ⟨27, ![2, 2, 1, 2, 2, 2, 2, 2, 2, 2, 2, 2, 2, 2, 2, 2, 2, 2, 2, 2, 2, 2, 2, 2, 2, 2, 2]⟩

/-- Where the flat position t · 2^24 + r · 2 + c of the permuted array sits in the original: t · 2^24 + c · 2^23 + r. -/
def toOrig (f : Nat) : Nat := f / 16777216 * 16777216 + f % 2 * 8388608 + f / 2 % 8388608
/-- Where the flat position t · 2^24 + c · 2^23 + r of the original sits in the permuted array: t · 2^24 + r · 2 + c. -/
def toPerm (p : Nat) : Nat := p / 16777216 * 16777216 + p % 8388608 * 2 + p / 8388608 % 2

/-- The bit move on numbers: with target bits `t0 t1`, control bit `c` and the rest `r < 2^23`. -/
theorem toOrig_eq (t0 t1 c r fP fQ : Nat) (hr : r < 8388608) (hc : c < 2) (ht : t1 < 2)
    (hP : fP = t0 * 33554432 + t1 * 16777216 + c * 8388608 + r)
    (hQ : fQ = t0 * 33554432 + t1 * 16777216 + r * 2 + c) : fP = toOrig fQ := by
  unfold toOrig
  have h1 : fQ / 16777216 = t0 * 2 + t1 := by omega
  have h2 : fQ % 2 = c := by omega
  have h3 : fQ / 2 % 8388608 = r := by omega
  rw [h1, h2, h3, hP]; ring
theorem toPerm_eq (t0 t1 c r fP fQ : Nat) (hr : r < 8388608) (hc : c < 2) (ht : t1 < 2)
    (hP : fP = t0 * 33554432 + t1 * 16777216 + c * 8388608 + r)
    (hQ : fQ = t0 * 33554432 + t1 * 16777216 + r * 2 + c) : fQ = toPerm fP := by
  unfold toPerm
  have h1 : fP / 16777216 = t0 * 2 + t1 := by omega
  have h2 : fP % 8388608 = r := by omega
  have h3 : fP / 8388608 % 2 = c := by omega
  rw [h1, h2, h3, hQ]; ring

/-- TARGETS TO THE FRONT: the original multi-index the permuted array's multi-index `j` reads sits at `toOrig` of
    `j`'s position. Both positions by Horner's rule over the 27 axes; the 23 untouched bits enter both as one number. -/
theorem rowMajor_src_front (hT : P27.Transposes [1, 2, 0, 4, 5, 6, 7, 8, 9, 10, 11, 12, 13, 14, 15, 16, 17, 18, 19, 20, 21, 22, 23, 24, 25, 26, 3] Q27) (j : Q27.Idx) :
    (P27.rowMajor (hT.src j)).val = toOrig (Q27.rowMajor j).val := by
  have c0 : ((hT.src j) 0).val = (j 2).val := rfl
  have c1 : ((hT.src j) 1).val = (j 0).val := rfl
  have c2 : ((hT.src j) 2).val = (j 1).val := rfl
  have c3 : ((hT.src j) 3).val = (j 26).val := rfl
  have c4 : ((hT.src j) 4).val = (j 3).val := rfl
  have c5 : ((hT.src j) 5).val = (j 4).val := rfl
  have c6 : ((hT.src j) 6).val = (j 5).val := rfl
  have c7 : ((hT.src j) 7).val = (j 6).val := rfl
  have c8 : ((hT.src j) 8).val = (j 7).val := rfl
  have c9 : ((hT.src j) 9).val = (j 8).val := rfl
  have c10 : ((hT.src j) 10).val = (j 9).val := rfl
  have c11 : ((hT.src j) 11).val = (j 10).val := rfl
  have c12 : ((hT.src j) 12).val = (j 11).val := rfl
  have c13 : ((hT.src j) 13).val = (j 12).val := rfl
  have c14 : ((hT.src j) 14).val = (j 13).val := rfl
  have c15 : ((hT.src j) 15).val = (j 14).val := rfl
  have c16 : ((hT.src j) 16).val = (j 15).val := rfl
  have c17 : ((hT.src j) 17).val = (j 16).val := rfl
  have c18 : ((hT.src j) 18).val = (j 17).val := rfl
  have c19 : ((hT.src j) 19).val = (j 18).val := rfl
  have c20 : ((hT.src j) 20).val = (j 19).val := rfl
  have c21 : ((hT.src j) 21).val = (j 20).val := rfl
  have c22 : ((hT.src j) 22).val = (j 21).val := rfl
  have c23 : ((hT.src j) 23).val = (j 22).val := rfl
  have c24 : ((hT.src j) 24).val = (j 23).val := rfl
  have c25 : ((hT.src j) 25).val = (j 24).val := rfl
  have c26 : ((hT.src j) 26).val = (j 25).val := rfl
  have eP : (P27.rowMajor (hT.src j)).val = (((((((((((((((((((((((((((0 * 1 + ((hT.src j) 0).val) * 2 + ((hT.src j) 1).val) * 2 + ((hT.src j) 2).val) * 2 + ((hT.src j) 3).val) * 2 + ((hT.src j) 4).val) * 2 + ((hT.src j) 5).val) * 2 + ((hT.src j) 6).val) * 2 + ((hT.src j) 7).val) * 2 + ((hT.src j) 8).val) * 2 + ((hT.src j) 9).val) * 2 + ((hT.src j) 10).val) * 2 + ((hT.src j) 11).val) * 2 + ((hT.src j) 12).val) * 2 + ((hT.src j) 13).val) * 2 + ((hT.src j) 14).val) * 2 + ((hT.src j) 15).val) * 2 + ((hT.src j) 16).val) * 2 + ((hT.src j) 17).val) * 2 + ((hT.src j) 18).val) * 2 + ((hT.src j) 19).val) * 2 + ((hT.src j) 20).val) * 2 + ((hT.src j) 21).val) * 2 + ((hT.src j) 22).val) * 2 + ((hT.src j) 23).val) * 2 + ((hT.src j) 24).val) * 2 + ((hT.src j) 25).val) * 2 + ((hT.src j) 26).val) :=
    (Shape.rowMajor_val_horner P27 _).trans rfl
  have eQ : (Q27.rowMajor j).val = (((((((((((((((((((((((((((0 * 2 + (j 0).val) * 2 + (j 1).val) * 1 + (j 2).val) * 2 + (j 3).val) * 2 + (j 4).val) * 2 + (j 5).val) * 2 + (j 6).val) * 2 + (j 7).val) * 2 + (j 8).val) * 2 + (j 9).val) * 2 + (j 10).val) * 2 + (j 11).val) * 2 + (j 12).val) * 2 + (j 13).val) * 2 + (j 14).val) * 2 + (j 15).val) * 2 + (j 16).val) * 2 + (j 17).val) * 2 + (j 18).val) * 2 + (j 19).val) * 2 + (j 20).val) * 2 + (j 21).val) * 2 + (j 22).val) * 2 + (j 23).val) * 2 + (j 24).val) * 2 + (j 25).val) * 2 + (j 26).val) :=
    (Shape.rowMajor_val_horner Q27 _).trans rfl
  have b2 : (j 2).val < 1 := (j 2).isLt
  have b26 : (j 26).val < 2 := (j 26).isLt
  obtain ⟨r, hr⟩ : ∃ r, r = (((((((((((((((((((((((0 * 2 + (j 3).val) * 2 + (j 4).val) * 2 + (j 5).val) * 2 + (j 6).val) * 2 + (j 7).val) * 2 + (j 8).val) * 2 + (j 9).val) * 2 + (j 10).val) * 2 + (j 11).val) * 2 + (j 12).val) * 2 + (j 13).val) * 2 + (j 14).val) * 2 + (j 15).val) * 2 + (j 16).val) * 2 + (j 17).val) * 2 + (j 18).val) * 2 + (j 19).val) * 2 + (j 20).val) * 2 + (j 21).val) * 2 + (j 22).val) * 2 + (j 23).val) * 2 + (j 24).val) * 2 + (j 25).val) := ⟨_, rfl⟩
  have hrlt : r < 8388608 := by
    have h3 : (j 3).val < 2 := (j 3).isLt
    have h4 : (j 4).val < 2 := (j 4).isLt
    have h5 : (j 5).val < 2 := (j 5).isLt
    have h6 : (j 6).val < 2 := (j 6).isLt
    have h7 : (j 7).val < 2 := (j 7).isLt
    have h8 : (j 8).val < 2 := (j 8).isLt
    have h9 : (j 9).val < 2 := (j 9).isLt
    have h10 : (j 10).val < 2 := (j 10).isLt
    have h11 : (j 11).val < 2 := (j 11).isLt
    have h12 : (j 12).val < 2 := (j 12).isLt
    have h13 : (j 13).val < 2 := (j 13).isLt
    have h14 : (j 14).val < 2 := (j 14).isLt
    have h15 : (j 15).val < 2 := (j 15).isLt
    have h16 : (j 16).val < 2 := (j 16).isLt
    have h17 : (j 17).val < 2 := (j 17).isLt
    have h18 : (j 18).val < 2 := (j 18).isLt
    have h19 : (j 19).val < 2 := (j 19).isLt
    have h20 : (j 20).val < 2 := (j 20).isLt
    have h21 : (j 21).val < 2 := (j 21).isLt
    have h22 : (j 22).val < 2 := (j 22).isLt
    have h23 : (j 23).val < 2 := (j 23).isLt
    have h24 : (j 24).val < 2 := (j 24).isLt
    have h25 : (j 25).val < 2 := (j 25).isLt
    omega
  have b1 : (j 1).val < 2 := (j 1).isLt
  exact toOrig_eq (j 0).val (j 1).val (j 26).val r _ _ hrlt b26 b1 (by omega) (by omega)

/-- TARGETS BACK IN PLACE: the permuted multi-index the original array's multi-index `j` reads sits at `toPerm` of
    `j`'s position. -/
theorem rowMajor_src_back (hT : Q27.Transposes [2, 0, 1, 26, 3, 4, 5, 6, 7, 8, 9, 10, 11, 12, 13, 14, 15, 16, 17, 18, 19, 20, 21, 22, 23, 24, 25] P27) (j : P27.Idx) :
    (Q27.rowMajor (hT.src j)).val = toPerm (P27.rowMajor j).val := by
  have c0 : ((hT.src j) 0).val = (j 1).val := rfl
  have c1 : ((hT.src j) 1).val = (j 2).val := rfl
  have c2 : ((hT.src j) 2).val = (j 0).val := rfl
  have c3 : ((hT.src j) 3).val = (j 4).val := rfl
  have c4 : ((hT.src j) 4).val = (j 5).val := rfl
  have c5 : ((hT.src j) 5).val = (j 6).val := rfl
  have c6 : ((hT.src j) 6).val = (j 7).val := rfl
  have c7 : ((hT.src j) 7).val = (j 8).val := rfl
  have c8 : ((hT.src j) 8).val = (j 9).val := rfl
  have c9 : ((hT.src j) 9).val = (j 10).val := rfl
  have c10 : ((hT.src j) 10).val = (j 11).val := rfl
  have c11 : ((hT.src j) 11).val = (j 12).val := rfl
  have c12 : ((hT.src j) 12).val = (j 13).val := rfl
  have c13 : ((hT.src j) 13).val = (j 14).val := rfl
  have c14 : ((hT.src j) 14).val = (j 15).val := rfl
  have c15 : ((hT.src j) 15).val = (j 16).val := rfl
  have c16 : ((hT.src j) 16).val = (j 17).val := rfl
  have c17 : ((hT.src j) 17).val = (j 18).val := rfl
  have c18 : ((hT.src j) 18).val = (j 19).val := rfl
  have c19 : ((hT.src j) 19).val = (j 20).val := rfl
  have c20 : ((hT.src j) 20).val = (j 21).val := rfl
  have c21 : ((hT.src j) 21).val = (j 22).val := rfl
  have c22 : ((hT.src j) 22).val = (j 23).val := rfl
  have c23 : ((hT.src j) 23).val = (j 24).val := rfl
  have c24 : ((hT.src j) 24).val = (j 25).val := rfl
  have c25 : ((hT.src j) 25).val = (j 26).val := rfl
  have c26 : ((hT.src j) 26).val = (j 3).val := rfl
  have eQ : (Q27.rowMajor (hT.src j)).val = (((((((((((((((((((((((((((0 * 2 + ((hT.src j) 0).val) * 2 + ((hT.src j) 1).val) * 1 + ((hT.src j) 2).val) * 2 + ((hT.src j) 3).val) * 2 + ((hT.src j) 4).val) * 2 + ((hT.src j) 5).val) * 2 + ((hT.src j) 6).val) * 2 + ((hT.src j) 7).val) * 2 + ((hT.src j) 8).val) * 2 + ((hT.src j) 9).val) * 2 + ((hT.src j) 10).val) * 2 + ((hT.src j) 11).val) * 2 + ((hT.src j) 12).val) * 2 + ((hT.src j) 13).val) * 2 + ((hT.src j) 14).val) * 2 + ((hT.src j) 15).val) * 2 + ((hT.src j) 16).val) * 2 + ((hT.src j) 17).val) * 2 + ((hT.src j) 18).val) * 2 + ((hT.src j) 19).val) * 2 + ((hT.src j) 20).val) * 2 + ((hT.src j) 21).val) * 2 + ((hT.src j) 22).val) * 2 + ((hT.src j) 23).val) * 2 + ((hT.src j) 24).val) * 2 + ((hT.src j) 25).val) * 2 + ((hT.src j) 26).val) :=
    (Shape.rowMajor_val_horner Q27 _).trans rfl
  have eP : (P27.rowMajor j).val = (((((((((((((((((((((((((((0 * 1 + (j 0).val) * 2 + (j 1).val) * 2 + (j 2).val) * 2 + (j 3).val) * 2 + (j 4).val) * 2 + (j 5).val) * 2 + (j 6).val) * 2 + (j 7).val) * 2 + (j 8).val) * 2 + (j 9).val) * 2 + (j 10).val) * 2 + (j 11).val) * 2 + (j 12).val) * 2 + (j 13).val) * 2 + (j 14).val) * 2 + (j 15).val) * 2 + (j 16).val) * 2 + (j 17).val) * 2 + (j 18).val) * 2 + (j 19).val) * 2 + (j 20).val) * 2 + (j 21).val) * 2 + (j 22).val) * 2 + (j 23).val) * 2 + (j 24).val) * 2 + (j 25).val) * 2 + (j 26).val) :=
    (Shape.rowMajor_val_horner P27 _).trans rfl
  have b0 : (j 0).val < 1 := (j 0).isLt
  have b3 : (j 3).val < 2 := (j 3).isLt
  obtain ⟨r, hr⟩ : ∃ r, r = (((((((((((((((((((((((0 * 2 + (j 4).val) * 2 + (j 5).val) * 2 + (j 6).val) * 2 + (j 7).val) * 2 + (j 8).val) * 2 + (j 9).val) * 2 + (j 10).val) * 2 + (j 11).val) * 2 + (j 12).val) * 2 + (j 13).val) * 2 + (j 14).val) * 2 + (j 15).val) * 2 + (j 16).val) * 2 + (j 17).val) * 2 + (j 18).val) * 2 + (j 19).val) * 2 + (j 20).val) * 2 + (j 21).val) * 2 + (j 22).val) * 2 + (j 23).val) * 2 + (j 24).val) * 2 + (j 25).val) * 2 + (j 26).val) := ⟨_, rfl⟩
  have hrlt : r < 8388608 := by
    have h4 : (j 4).val < 2 := (j 4).isLt
    have h5 : (j 5).val < 2 := (j 5).isLt
    have h6 : (j 6).val < 2 := (j 6).isLt
    have h7 : (j 7).val < 2 := (j 7).isLt
    have h8 : (j 8).val < 2 := (j 8).isLt
    have h9 : (j 9).val < 2 := (j 9).isLt
    have h10 : (j 10).val < 2 := (j 10).isLt
    have h11 : (j 11).val < 2 := (j 11).isLt
    have h12 : (j 12).val < 2 := (j 12).isLt
    have h13 : (j 13).val < 2 := (j 13).isLt
    have h14 : (j 14).val < 2 := (j 14).isLt
    have h15 : (j 15).val < 2 := (j 15).isLt
    have h16 : (j 16).val < 2 := (j 16).isLt
    have h17 : (j 17).val < 2 := (j 17).isLt
    have h18 : (j 18).val < 2 := (j 18).isLt
    have h19 : (j 19).val < 2 := (j 19).isLt
    have h20 : (j 20).val < 2 := (j 20).isLt
    have h21 : (j 21).val < 2 := (j 21).isLt
    have h22 : (j 22).val < 2 := (j 22).isLt
    have h23 : (j 23).val < 2 := (j 23).isLt
    have h24 : (j 24).val < 2 := (j 24).isLt
    have h25 : (j 25).val < 2 := (j 25).isLt
    have h26 : (j 26).val < 2 := (j 26).isLt
    omega
  have b2 : (j 2).val < 2 := (j 2).isLt
  exact toPerm_eq (j 1).val (j 2).val (j 3).val r _ _ hrlt b3 b2 (by omega) (by omega)

/-- A reshape, a transpose and a reshape in a row re-index a flat array: when the transpose's source index sits at
    `φ` of its result index's position, the composite read at `i` is the operand at the index whose position is `φ` of `i`'s. -/
theorem shapeCast_transpose_shapeCast_apply {s0 s1 s2 s3 : Shape} {α : Type} (x : s0.Idx → α) (h0 : s0.ShapeCasts s1)
    (perm : List (Fin s1.rank)) (hT : s1.Transposes perm s2) (h2 : s2.ShapeCasts s3) (φ : Nat → Nat)
    (hφ : ∀ j : s2.Idx, (s1.rowMajor (hT.src j)).val = φ (s2.rowMajor j).val) (i : s3.Idx) (k : s0.Idx)
    (hk : (s0.rowMajor k).val = φ (s3.rowMajor i).val) :
    shapeCast s3 (transpose s2 perm (shapeCast s1 x h0) hT) h2 i = x k := by
  unfold shapeCast transpose
  refine congrArg x (Shape.reshapeEquiv_eq_of_rowMajor h0 ?_)
  rw [hk, hφ, Shape.rowMajor_reshapeEquiv]

end Cert.GateBits

end
-- ==== Proof.GateSpec.lean ====
/-
  What a controlled two-qubit gate does to a 26-qubit state vector, position by position.

  The state is a vector of 2^26 amplitudes at flat positions  p = t · 2^24 + c · 2^23 + r : the two target qubits'
  bits t ∈ {0,1,2,3} on top, the control qubit's bit c below them, and the 23 remaining bits r. The gate is a 4×4
  matrix g acting on the target bits where the control bit is set:

      out[p] = x[p]                                            if c = 0,
      out[p] = Σ_k g[t, k] · x[k · 2^24 + 2^23 + r]  (k = 0…3)   if c = 1.

  Arrays are read through their flat positions (`amp`, `gate`: zero outside the array, which never happens at the
  positions used), so that two programs that reach the same position by different index arithmetic meet in one term.
-/
import Idealize.ShloMosaic.PureOps.Ideal
import Idealize.ShloMosaic.Lib.ValueIdx

noncomputable section

namespace Cert.GateSpec

open Idealize.ShloMosaic Idealize.ShloMosaic.ValueIdx

/-- The amplitude at flat position `n` of the state `[1, 2^26]`. -/
def amp (x : (⟨2, ![1, 67108864]⟩ : Shape).Idx → EReal) (n : Nat) : EReal :=
  if h : n < 67108864 then x (ix2 ⟨0, Nat.one_pos⟩ ⟨n, h⟩) else 0

/-- The gate's entry in row `a`, column `k`. -/
def gate (g : (⟨2, ![4, 4]⟩ : Shape).Idx → EReal) (a k : Nat) : EReal :=
  if h : a < 4 ∧ k < 4 then g (ix2 ⟨a, h.1⟩ ⟨k, h.2⟩) else 0

/-- Row `a` of the gate applied to the four amplitudes with the control bit set and the remaining bits `r`,
    summed in the order 0, 1, 2, 3. -/
def mix (x : (⟨2, ![1, 67108864]⟩ : Shape).Idx → EReal) (g : (⟨2, ![4, 4]⟩ : Shape).Idx → EReal) (a r : Nat) : EReal :=
  gate g a 0 * amp x (8388608 + r) + gate g a 1 * amp x (25165824 + r) + gate g a 2 * amp x (41943040 + r)
    + gate g a 3 * amp x (58720256 + r)

/-- The state after the gate, as the column `[2^26, 1]`. -/
def G (x : (⟨2, ![1, 67108864]⟩ : Shape).Idx → EReal) (g : (⟨2, ![4, 4]⟩ : Shape).Idx → EReal) :
    (⟨2, ![67108864, 1]⟩ : Shape).Idx → EReal := fun i =>
  if (i 0).val / 8388608 % 2 = 1 then mix x g ((i 0).val / 16777216) ((i 0).val % 8388608) else amp x (i 0).val

/-- An entry of the state is the amplitude at its column. -/
theorem amp_apply (x : (⟨2, ![1, 67108864]⟩ : Shape).Idx → EReal) (k : (⟨2, ![1, 67108864]⟩ : Shape).Idx) (n : Nat)
    (h : (k 1).val = n) : x k = amp x n := by
  subst h
  unfold amp
  have hlt : (k 1).val < 67108864 := (k 1).isLt
  rw [dif_pos hlt]
  refine congrArg x (funext fun a => Fin.ext ?_)
  match a with
  | ⟨0, _⟩ => have h0 : (k 0).val < 1 := (k 0).isLt; show (k 0).val = 0; omega
  | ⟨1, _⟩ => rfl

/-- An entry of the gate matrix is `gate` at its row and column. -/
theorem gate_apply (g : (⟨2, ![4, 4]⟩ : Shape).Idx → EReal) (k : (⟨2, ![4, 4]⟩ : Shape).Idx) (a b : Nat)
    (h0 : (k 0).val = a) (h1 : (k 1).val = b) : g k = gate g a b := by
  subst h0 h1
  unfold gate
  have hlt : (k 0).val < 4 ∧ (k 1).val < 4 := ⟨(k 0).isLt, (k 1).isLt⟩
  rw [dif_pos hlt]
  refine congrArg g (funext fun a => Fin.ext ?_)
  match a with
  | ⟨0, _⟩ => rfl
  | ⟨1, _⟩ => rfl

end Cert.GateSpec

end
-- ==== Proof.LibScatterSet.lean ====
/-
  A host scatter whose body returns the update (`x.at[…].set(v)`), read at an element.

  The scatter is a left fold over the update indices in row-major order, each step overwriting the element the
  update lands on (if it lands inside the operand). Read at one element of the result this is: the update that lands
  there, when exactly one does; the operand's element, when none does. Stated for any shapes and dimension numbers,
  the landing map left abstract (`ScatterDims.resultIdx?`).
-/
import Idealize.ShloMosaic.PureOps.ShapeOps
import Mathlib.Data.List.Basic

namespace Idealize.ShloMosaic

section Fold

variable {β ι α : Type}

/-- A fold of overwriting steps leaves an element no step lands on as it was. -/
theorem foldl_set_of_miss (step : (ι → α) → β → (ι → α)) (g : β → Option ι)
    (hkeep : ∀ r n i', g n ≠ some i' → step r n i' = r i') (i' : ι) :
    ∀ (l : List β) (r : ι → α), (∀ n ∈ l, g n ≠ some i') → l.foldl step r i' = r i'
  | [], _, _ => rfl
  | n :: l, r, h => by
    rw [List.foldl_cons, foldl_set_of_miss step g hkeep i' l _ (fun n' hn' => h n' (List.mem_cons_of_mem _ hn'))]
    exact hkeep r n i' (h n (List.mem_cons_self ..))

/-- A fold of overwriting steps leaves, at an element exactly one step `n0` of the list lands on, that step's value. -/
theorem foldl_set_of_hit (step : (ι → α) → β → (ι → α)) (g : β → Option ι) (v : β → α)
    (hhit : ∀ r n i, g n = some i → step r n i = v n)
    (hkeep : ∀ r n i', g n ≠ some i' → step r n i' = r i') (i' : ι) (n0 : β) (h0 : g n0 = some i') :
    ∀ (l : List β) (r : ι → α), n0 ∈ l → (∀ n ∈ l, g n = some i' → n = n0) → l.foldl step r i' = v n0
  | [], _, hm, _ => absurd hm List.not_mem_nil
  | n :: l, r, hm, hu => by
    rw [List.foldl_cons]
    by_cases hl : n0 ∈ l
    · exact foldl_set_of_hit step g v hhit hkeep i' n0 h0 l _ hl (fun n' hn' => hu n' (List.mem_cons_of_mem _ hn'))
    · have hn : n = n0 := by
        rcases List.mem_cons.1 hm with e | e
        · exact e.symm
        · exact absurd e hl
      subst hn
      rw [foldl_set_of_miss step g hkeep i' l _ (fun n' hn' e => hl ((hu n' (List.mem_cons_of_mem _ hn') e) ▸ hn'))]
      exact hhit r n i' h0

end Fold

section Scatter

variable {s si u : Shape} {α : Type} {w : Nat}

/-- An element NO update lands on keeps the operand's value. -/
theorem Host.scatter_set_apply_of_miss (d : ScatterDims s si u) (x : s.Idx → α) (idx : IVec si w) (upd : u.Idx → α)
    (i' : s.Idx) (hmiss : ∀ j : u.Idx, d.resultIdx? j idx ≠ some i') :
    Host.scatter d (fun _ b => b) x idx upd i' = x i' := by
  unfold Host.scatter
  refine foldl_set_of_miss _ (fun n => d.resultIdx? (u.rowMajor.symm n) idx) ?_ i' _ x (fun n _ => hmiss _)
  intro r n i'' h
  cases hg : d.resultIdx? (u.rowMajor.symm n) idx with
  | none => simp only [hg]
  | some i =>
    have hne : i'' ≠ i := fun e => h (by rw [hg, e])
    simp only [hg, if_neg hne]

/-- An element exactly ONE update `j0` lands on holds that update. -/
theorem Host.scatter_set_apply_of_hit (d : ScatterDims s si u) (x : s.Idx → α) (idx : IVec si w) (upd : u.Idx → α)
    (i' : s.Idx) (j0 : u.Idx) (h0 : d.resultIdx? j0 idx = some i')
    (huniq : ∀ j : u.Idx, d.resultIdx? j idx = some i' → j = j0) :
    Host.scatter d (fun _ b => b) x idx upd i' = upd j0 := by
  unfold Host.scatter
  have e0 : u.rowMajor.symm (u.rowMajor j0) = j0 := Equiv.symm_apply_apply _ _
  refine (foldl_set_of_hit _ (fun n => d.resultIdx? (u.rowMajor.symm n) idx) (fun n => upd (u.rowMajor.symm n)) ?_ ?_ i'
    (u.rowMajor j0) (by rw [e0]; exact h0) _ x (List.mem_finRange _) (fun n _ hn => ?_)).trans (by rw [e0])
  · intro r n i h
    simp only [h]
    exact if_pos trivial
  · intro r n i'' h
    cases hg : d.resultIdx? (u.rowMajor.symm n) idx with
    | none => simp only [hg]
    | some i =>
      have hne : i'' ≠ i := fun e => h (by rw [hg, e])
      simp only [hg, if_neg hne]
  · exact (Equiv.symm_apply_eq _).1 (huniq _ hn)

end Scatter

end Idealize.ShloMosaic
-- ==== Proof.RefValue.lean ====
/-
  The reference, read stage by stage at `Ideal`, is the gate's specification (`GateSpec.G`).

  The reference reshapes the state to one axis per qubit, transposes the two target qubits to the front and the
  control qubit to the back, and reshapes to `[4, 2^23, 2]` = (target bits t, remaining bits r, control bit c): entry
  (t, r, c) of that array is the amplitude at t · 2^24 + c · 2^23 + r (`permuted_apply`). It then takes the slice
  c = 1, multiplies by the gate matrix — entry (t, r) is Σ_k g[t,k] · x[k · 2^24 + 2^23 + r] (`mixed_apply`) —, writes
  the product back over the slice c = 1 by a scatter at the one start index 1 (`gated_apply`: update (t, r) lands on
  (t, r, 1) and nowhere else), and undoes the reshapes and the transpose (`result_eq`: position p reads entry
  (p / 2^24, p mod 2^23, bit 23 of p)).
-/
import proofs.«137706_j22935125360825_2_alg».proof.Proof.Gen.ReferenceIdeal.Run
import proofs.«137706_j22935125360825_2_alg».proof.Proof.GateBits
import proofs.«137706_j22935125360825_2_alg».proof.Proof.GateSpec
import proofs.«137706_j22935125360825_2_alg».proof.Proof.LibScatterSet
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Idealize.ShloMosaic Idealize.ShloMosaic.TcCoe Idealize.SL.Sem Idealize.ShloMosaic.StableHlo
open Idealize.ShloMosaic.ValueIdx Cert.GateBits Cert.GateSpec

variable (x0 : (⟨S1x67108864, .f32⟩ : BufTy).Contents (Elt Ideal)) (x1 : (⟨S4x4, .f32⟩ : BufTy).Contents (Elt Ideal))

/-! ## The state with the target bits first and the control bit last -/

/-- The state as `[4, 2^23, 2]`: reshape, transpose, reshape. -/
def permuted : (⟨S4x8388608x2, .f32⟩ : BufTy).Contents (Elt Ideal) :=
  shapeCast _ (transpose S2x2x1x2x2x2x2x2x2x2x2x2x2x2x2x2x2x2x2x2x2x2x2x2x2x2x2 [1, 2, 0, 4, 5, 6, 7, 8, 9, 10, 11, 12, 13, 14, 15, 16, 17, 18, 19, 20, 21, 22, 23, 24, 25, 26, 3] (shapeCast _ x0 Gen.shapeCasts_S1x67108864_S1x2x2x2x2x2x2x2x2x2x2x2x2x2x2x2x2x2x2x2x2x2x2x2x2x2x2) Gen.transposes_S1x2x2x2x2x2x2x2x2x2x2x2x2x2x2x2x2x2x2x2x2x2x2x2x2x2x2_S2x2x1x2x2x2x2x2x2x2x2x2x2x2x2x2x2x2x2x2x2x2x2x2x2x2x2_1_2_0_4_5_6_7_8_9_10_11_12_13_14_15_16_17_18_19_20_21_22_23_24_25_26_3) Gen.shapeCasts_S2x2x1x2x2x2x2x2x2x2x2x2x2x2x2x2x2x2x2x2x2x2x2x2x2x2x2_S4x8388608x2

/-- Entry (t, r, c) is the amplitude at t · 2^24 + c · 2^23 + r. -/
theorem permuted_apply (a : Fin 4) (r : Fin 8388608) (c : Fin 2) :
    permuted x0 (ix3 a r c) = amp x0 (a.val * 16777216 + c.val * 8388608 + r.val) := by
  have ha := a.isLt; have hr := r.isLt; have hc := c.isLt
  unfold permuted
  refine (shapeCast_transpose_shapeCast_apply x0 _ _ _ _ toOrig (fun j => rowMajor_src_front _ j) (ix3 a r c)
    (ix2 ⟨0, Nat.one_pos⟩ ⟨a.val * 16777216 + c.val * 8388608 + r.val, by omega⟩) ?_).trans (amp_apply x0 _ _ rfl)
  rw [Shape.rowMajor_val_two, Shape.rowMajor_val_three]
  show 0 * 67108864 + (a.val * 16777216 + c.val * 8388608 + r.val) = toOrig ((a.val * 8388608 + r.val) * 2 + c.val)
  exact toOrig_eq (a.val / 2) (a.val % 2) c.val r.val _ _ hr hc (by omega) (by omega) (by omega)

/-! ## The slice with the control bit set, and the gate applied to it -/

/-- The slice c = 1 as `[4, 2^23]`. -/
def ctl : (⟨S4x8388608, .f32⟩ : BufTy).Contents (Elt Ideal) :=
  shapeCast _ (extractStridedSlice S4x8388608x1 ![0, 0, 1] (permuted x0) Gen.slices_S4x8388608x2_S4x8388608x1_0_0_1) Gen.shapeCasts_S4x8388608x1_S4x8388608

/-- Entry (k, r) of the slice is the amplitude at k · 2^24 + 2^23 + r. -/
theorem ctl_apply (k : Fin 4) (r : Fin 8388608) : ctl x0 (ix2 k r) = amp x0 (k.val * 16777216 + 1 * 8388608 + r.val) := by
  have hk := k.isLt; have hr := r.isLt
  unfold ctl
  refine (shapeCast_apply _ Gen.shapeCasts_S4x8388608x1_S4x8388608 (ix2 k r) (ix3 k r ⟨0, Nat.one_pos⟩) ?_).trans ?_
  · rw [Shape.rowMajor_val_three, Shape.rowMajor_val_two]
    show (k.val * 8388608 + r.val) * 1 + 0 = k.val * 8388608 + r.val
    omega
  refine (extractStridedSlice_apply ![0, 0, 1] _ Gen.slices_S4x8388608x2_S4x8388608x1_0_0_1 (ix3 k r ⟨0, Nat.one_pos⟩)
    (ix3 k r ⟨1, by decide⟩) (fun a => match a with
      | ⟨0, _⟩ => by show k.val = 0 + k.val; omega
      | ⟨1, _⟩ => by show r.val = 0 + r.val; omega
      | ⟨2, _⟩ => by show 1 = 1 + 0; omega)).trans ?_
  exact permuted_apply x0 k r ⟨1, by decide⟩

theorem lhs_0 (i : S4x8388608.Idx) (q : dot_S4x4_S4x8388608_S4x8388608_1_0_0_1_n_n.contr.Idx) : (dot_S4x4_S4x8388608_S4x8388608_1_0_0_1_n_n.lhsIdx i q 0).val = (i 0).val := by
  unfold DotDims.lhsIdx
  rw [dif_neg (show ¬(0 : Fin S4x4.rank) ∈ dot_S4x4_S4x8388608_S4x8388608_1_0_0_1_n_n.lhsBatch by decide), dif_pos (show (0 : Fin S4x4.rank) ∈ dot_S4x4_S4x8388608_S4x8388608_1_0_0_1_n_n.lhsNonContracting by decide)]
  rfl
theorem lhs_1 (i : S4x8388608.Idx) (q : dot_S4x4_S4x8388608_S4x8388608_1_0_0_1_n_n.contr.Idx) : (dot_S4x4_S4x8388608_S4x8388608_1_0_0_1_n_n.lhsIdx i q 1).val = (q ⟨0, by decide⟩).val :=
  dot_S4x4_S4x8388608_S4x8388608_1_0_0_1_n_n.lhsIdx_val_of_single rfl i q
theorem rhs_0 (i : S4x8388608.Idx) (q : dot_S4x4_S4x8388608_S4x8388608_1_0_0_1_n_n.contr.Idx) : (dot_S4x4_S4x8388608_S4x8388608_1_0_0_1_n_n.rhsIdx i q 0).val = (q ⟨0, by decide⟩).val :=
  dot_S4x4_S4x8388608_S4x8388608_1_0_0_1_n_n.rhsIdx_val_of_single rfl i q
theorem rhs_1 (i : S4x8388608.Idx) (q : dot_S4x4_S4x8388608_S4x8388608_1_0_0_1_n_n.contr.Idx) : (dot_S4x4_S4x8388608_S4x8388608_1_0_0_1_n_n.rhsIdx i q 1).val = (i 1).val := by
  unfold DotDims.rhsIdx
  rw [dif_neg (show ¬(1 : Fin S4x8388608.rank) ∈ dot_S4x4_S4x8388608_S4x8388608_1_0_0_1_n_n.rhsBatch by decide), dif_pos (show (1 : Fin S4x8388608.rank) ∈ dot_S4x4_S4x8388608_S4x8388608_1_0_0_1_n_n.rhsNonContracting by decide)]
  rfl

/-- The gate matrix times the slice. -/
def mixed : (⟨S4x8388608, .f32⟩ : BufTy).Contents (Elt Ideal) :=
  Host.dotGeneral (F := Ideal) (φ₁ := .f32) (φ₂ := .f32) dot_S4x4_S4x8388608_S4x8388608_1_0_0_1_n_n none x1 (ctl x0)

/-- Entry (t, r) of the product is row t of the gate applied to the four amplitudes with remaining bits r. -/
theorem mixed_apply (a : Fin 4) (r : Fin 8388608) : mixed x0 x1 (ix2 a r) = mix x0 x1 a.val r.val := by
  unfold mixed
  simp only [Host.dotGeneral]
  rw [Ideal.dotGeneral_apply, ← Equiv.sum_comp (ValueIdx.contrEquiv1 dot_S4x4_S4x8388608_S4x8388608_1_0_0_1_n_n 4 rfl rfl).symm]
  have hterm : ∀ k : Fin 4, x1 (dot_S4x4_S4x8388608_S4x8388608_1_0_0_1_n_n.lhsIdx (ix2 a r) ((ValueIdx.contrEquiv1 dot_S4x4_S4x8388608_S4x8388608_1_0_0_1_n_n 4 rfl rfl).symm k))
        * ctl x0 (dot_S4x4_S4x8388608_S4x8388608_1_0_0_1_n_n.rhsIdx (ix2 a r) ((ValueIdx.contrEquiv1 dot_S4x4_S4x8388608_S4x8388608_1_0_0_1_n_n 4 rfl rfl).symm k))
      = gate x1 a.val k.val * amp x0 (k.val * 16777216 + 1 * 8388608 + r.val) := by
    intro k
    have hk := ValueIdx.contrEquiv1_symm_val dot_S4x4_S4x8388608_S4x8388608_1_0_0_1_n_n 4 rfl rfl k
    have er : dot_S4x4_S4x8388608_S4x8388608_1_0_0_1_n_n.rhsIdx (ix2 a r) ((ValueIdx.contrEquiv1 dot_S4x4_S4x8388608_S4x8388608_1_0_0_1_n_n 4 rfl rfl).symm k) = ix2 k r := funext fun b => Fin.ext (by
      match b with
      | ⟨0, _⟩ => exact (rhs_0 _ _).trans hk
      | ⟨1, _⟩ => exact rhs_1 _ _)
    rw [er, ctl_apply]
    exact congrArg (· * _) (gate_apply x1 _ _ _ (lhs_0 _ _) ((lhs_1 _ _).trans hk))
  rw [Finset.sum_congr rfl (fun k _ => hterm k), Fin.sum_univ_four]
  rfl

/-! ## The product written back over the slice -/

/-- The scatter's one start index: 1, on the control axis. -/
def one : (⟨S1, .i32⟩ : BufTy).Contents (Elt Ideal) := broadcastInDim S1 ![] Gen.bcast_S_S1 (constantI S_ 32 1#32)

theorem start_0 (j : S4x8388608.Idx) : scatter_S4x8388608x2_S1_S4x8388608_01_2_2_0.start j (one) 0 = 0 := by
  unfold ScatterDims.start
  rw [dif_neg (show ¬(0 : Fin S4x8388608x2.rank) ∈ scatter_S4x8388608x2_S1_S4x8388608_01_2_2_0.scatterDimsToOperandDims by decide)]
theorem start_1 (j : S4x8388608.Idx) : scatter_S4x8388608x2_S1_S4x8388608_01_2_2_0.start j (one) 1 = 0 := by
  unfold ScatterDims.start
  rw [dif_neg (show ¬(1 : Fin S4x8388608x2.rank) ∈ scatter_S4x8388608x2_S1_S4x8388608_01_2_2_0.scatterDimsToOperandDims by decide)]
theorem start_2 (j : S4x8388608.Idx) : scatter_S4x8388608x2_S1_S4x8388608_01_2_2_0.start j (one) 2 = 1 := by
  unfold ScatterDims.start
  rw [dif_pos (show (2 : Fin S4x8388608x2.rank) ∈ scatter_S4x8388608x2_S1_S4x8388608_01_2_2_0.scatterDimsToOperandDims by decide)]
  rfl
theorem window_0 (j : S4x8388608.Idx) : scatter_S4x8388608x2_S1_S4x8388608_01_2_2_0.window j 0 = (j 0).val := by
  unfold ScatterDims.window
  rw [dif_pos (show (0 : Fin S4x8388608x2.rank) ∈ scatter_S4x8388608x2_S1_S4x8388608_01_2_2_0.sKept by decide)]
  rfl
theorem window_1 (j : S4x8388608.Idx) : scatter_S4x8388608x2_S1_S4x8388608_01_2_2_0.window j 1 = (j 1).val := by
  unfold ScatterDims.window
  rw [dif_pos (show (1 : Fin S4x8388608x2.rank) ∈ scatter_S4x8388608x2_S1_S4x8388608_01_2_2_0.sKept by decide)]
  rfl
theorem window_2 (j : S4x8388608.Idx) : scatter_S4x8388608x2_S1_S4x8388608_01_2_2_0.window j 2 = 0 := by
  unfold ScatterDims.window
  rw [dif_neg (show ¬(2 : Fin S4x8388608x2.rank) ∈ scatter_S4x8388608x2_S1_S4x8388608_01_2_2_0.sKept by decide)]

/-- Update (t, r) lands on entry (t, r, 1): the window keeps its two coordinates, the start index puts it at c = 1. -/
theorem lands (j : S4x8388608.Idx) : scatter_S4x8388608x2_S1_S4x8388608_01_2_2_0.resultIdx? j (one) = some (ix3 (j 0) (j 1) ⟨1, by decide⟩) := by
  have h0 : (j 0).val < 4 := (j 0).isLt
  have h1 : (j 1).val < 8388608 := (j 1).isLt
  unfold ScatterDims.resultIdx?
  have h : ∀ a, 0 ≤ scatter_S4x8388608x2_S1_S4x8388608_01_2_2_0.start j (one) a + scatter_S4x8388608x2_S1_S4x8388608_01_2_2_0.window j a
      ∧ scatter_S4x8388608x2_S1_S4x8388608_01_2_2_0.start j (one) a + scatter_S4x8388608x2_S1_S4x8388608_01_2_2_0.window j a < S4x8388608x2.size a := fun a => match a with
    | ⟨0, _⟩ => by
      show 0 ≤ scatter_S4x8388608x2_S1_S4x8388608_01_2_2_0.start j (one) 0 + scatter_S4x8388608x2_S1_S4x8388608_01_2_2_0.window j 0 ∧ scatter_S4x8388608x2_S1_S4x8388608_01_2_2_0.start j (one) 0 + scatter_S4x8388608x2_S1_S4x8388608_01_2_2_0.window j 0 < ((4 : Nat) : Int)
      rw [start_0, window_0]; omega
    | ⟨1, _⟩ => by
      show 0 ≤ scatter_S4x8388608x2_S1_S4x8388608_01_2_2_0.start j (one) 1 + scatter_S4x8388608x2_S1_S4x8388608_01_2_2_0.window j 1 ∧ scatter_S4x8388608x2_S1_S4x8388608_01_2_2_0.start j (one) 1 + scatter_S4x8388608x2_S1_S4x8388608_01_2_2_0.window j 1 < ((8388608 : Nat) : Int)
      rw [start_1, window_1]; omega
    | ⟨2, _⟩ => by
      show 0 ≤ scatter_S4x8388608x2_S1_S4x8388608_01_2_2_0.start j (one) 2 + scatter_S4x8388608x2_S1_S4x8388608_01_2_2_0.window j 2 ∧ scatter_S4x8388608x2_S1_S4x8388608_01_2_2_0.start j (one) 2 + scatter_S4x8388608x2_S1_S4x8388608_01_2_2_0.window j 2 < ((2 : Nat) : Int)
      rw [start_2, window_2]; omega
  rw [dif_pos h]
  refine congrArg some (funext fun a => Fin.ext ?_)
  match a with
  | ⟨0, _⟩ => show (scatter_S4x8388608x2_S1_S4x8388608_01_2_2_0.start j (one) 0 + scatter_S4x8388608x2_S1_S4x8388608_01_2_2_0.window j 0).toNat = (j 0).val; rw [start_0, window_0]; omega
  | ⟨1, _⟩ => show (scatter_S4x8388608x2_S1_S4x8388608_01_2_2_0.start j (one) 1 + scatter_S4x8388608x2_S1_S4x8388608_01_2_2_0.window j 1).toNat = (j 1).val; rw [start_1, window_1]; omega
  | ⟨2, _⟩ => show (scatter_S4x8388608x2_S1_S4x8388608_01_2_2_0.start j (one) 2 + scatter_S4x8388608x2_S1_S4x8388608_01_2_2_0.window j 2).toNat = 1; rw [start_2, window_2]; omega

/-- The state with the slice c = 1 replaced by the product. -/
def gated : (⟨S4x8388608x2, .f32⟩ : BufTy).Contents (Elt Ideal) :=
  Host.scatter scatter_S4x8388608x2_S1_S4x8388608_01_2_2_0 (fun _ b => b) (permuted x0) (one) (mixed x0 x1)

/-- Entry (t, r, c): the product's entry (t, r) where c = 1, the state's amplitude where c = 0. -/
theorem gated_apply (a : Fin 4) (r : Fin 8388608) (c : Fin 2) :
    gated x0 x1 (ix3 a r c) = if c.val = 1 then mix x0 x1 a.val r.val else amp x0 (a.val * 16777216 + c.val * 8388608 + r.val) := by
  unfold gated
  by_cases hc : c.val = 1
  · rw [if_pos hc]
    have ec : c = ⟨1, by decide⟩ := Fin.ext hc
    subst ec
    refine (Host.scatter_set_apply_of_hit scatter_S4x8388608x2_S1_S4x8388608_01_2_2_0 (permuted x0) (one) (mixed x0 x1) _ (ix2 a r) (lands (ix2 a r)) (fun j hj => ?_)).trans
      (mixed_apply x0 x1 a r)
    rw [lands] at hj
    have e := Option.some.inj hj
    have e0 : j 0 = a := congrFun e 0
    have e1 : j 1 = r := congrFun e 1
    funext b
    match b with
    | ⟨0, _⟩ => exact e0
    | ⟨1, _⟩ => exact e1
  · rw [if_neg hc]
    refine (Host.scatter_set_apply_of_miss scatter_S4x8388608x2_S1_S4x8388608_01_2_2_0 (permuted x0) (one) (mixed x0 x1) _ (fun j hj => ?_)).trans (permuted_apply x0 a r c)
    rw [lands] at hj
    have e2 : (⟨1, by decide⟩ : Fin 2) = c := congrFun (Option.some.inj hj) 2
    exact hc (by rw [← e2])

/-! ## Back to the flat state -/

/-- The reference's result: the reshapes and the transpose undone. -/
def result : (⟨S67108864x1, .f32⟩ : BufTy).Contents (Elt Ideal) :=
  shapeCast _ (transpose S1x2x2x2x2x2x2x2x2x2x2x2x2x2x2x2x2x2x2x2x2x2x2x2x2x2x2 [2, 0, 1, 26, 3, 4, 5, 6, 7, 8, 9, 10, 11, 12, 13, 14, 15, 16, 17, 18, 19, 20, 21, 22, 23, 24, 25] (shapeCast _ (gated x0 x1) Gen.shapeCasts_S4x8388608x2_S2x2x1x2x2x2x2x2x2x2x2x2x2x2x2x2x2x2x2x2x2x2x2x2x2x2x2) Gen.transposes_S2x2x1x2x2x2x2x2x2x2x2x2x2x2x2x2x2x2x2x2x2x2x2x2x2x2x2_S1x2x2x2x2x2x2x2x2x2x2x2x2x2x2x2x2x2x2x2x2x2x2x2x2x2x2_2_0_1_26_3_4_5_6_7_8_9_10_11_12_13_14_15_16_17_18_19_20_21_22_23_24_25) Gen.shapeCasts_S1x2x2x2x2x2x2x2x2x2x2x2x2x2x2x2x2x2x2x2x2x2x2x2x2x2x2_S67108864x1

/-- The reference computes the gate's specification. -/
theorem result_eq : result x0 x1 = G x0 x1 := by
  funext i
  have hp : (i 0).val < 67108864 := (i 0).isLt
  have h1 : (i 1).val < 1 := (i 1).isLt
  unfold result
  refine (shapeCast_transpose_shapeCast_apply (gated x0 x1) _ _ _ _ toPerm (fun j => rowMajor_src_back _ j) i
    (ix3 ⟨(i 0).val / 16777216, by omega⟩ ⟨(i 0).val % 8388608, by omega⟩ ⟨(i 0).val / 8388608 % 2, by omega⟩) ?_).trans ?_
  · rw [Shape.rowMajor_val_three, Shape.rowMajor_val_two]
    show ((i 0).val / 16777216 * 8388608 + (i 0).val % 8388608) * 2 + (i 0).val / 8388608 % 2 = toPerm ((i 0).val * 1 + (i 1).val)
    have e : (i 0).val * 1 + (i 1).val = (i 0).val := by omega
    rw [e]; unfold toPerm; omega
  rw [gated_apply]
  unfold G
  show (if (i 0).val / 8388608 % 2 = 1 then mix x0 x1 ((i 0).val / 16777216) ((i 0).val % 8388608)
      else amp x0 ((i 0).val / 16777216 * 16777216 + (i 0).val / 8388608 % 2 * 8388608 + (i 0).val % 8388608)) = _
  by_cases hc : (i 0).val / 8388608 % 2 = 1
  · rw [if_pos hc, if_pos hc]
  · rw [if_neg hc, if_neg hc]
    exact congrArg (amp x0) (by omega)

end Cert.ReferenceIdeal.RefValue

end
-- ==== Proof.GateBlock.lean ====
/-
  The gate on the state cut into eight slabs.

  Cutting the 2^26 positions p = t · 2^24 + c · 2^23 + r into eight consecutive slabs of 2^23 puts position p in slab
  b = 2t + c at offset r: the slabs with b even (control bit clear) pass through, and slab b = 2t + 1 becomes row t of
  the gate applied to the four odd slabs 1, 3, 5, 7 at the same offset. `slab` says this over any way of reading an
  entry of slab b at a row and a lane (`A`) and an entry of the gate (`Mx`) — one block of rows, or the whole array.
-/
import proofs.«137706_j22935125360825_2_alg».proof.Proof.GateSpec

noncomputable section

namespace Cert.GateSpec

open Idealize.ShloMosaic Idealize.ShloMosaic.ValueIdx

/-- Entry (b, r, l) of an array `[8, n, 512]`, by its coordinates as numbers. -/
def acc3 {n : Nat} (X : (⟨3, ![8, n, 512]⟩ : Shape).Idx → EReal) (b r l : Nat) : EReal :=
  if h : b < 8 ∧ r < n ∧ l < 512 then X (ix3 ⟨b, h.1⟩ ⟨r, h.2.1⟩ ⟨l, h.2.2⟩) else 0

theorem acc3_apply {n : Nat} (X : (⟨3, ![8, n, 512]⟩ : Shape).Idx → EReal) (k : (⟨3, ![8, n, 512]⟩ : Shape).Idx) (b r l : Nat)
    (h0 : (k 0).val = b) (h1 : (k 1).val = r) (h2 : (k 2).val = l) : X k = acc3 X b r l := by
  subst h0 h1 h2
  unfold acc3
  have hlt : (k 0).val < 8 ∧ (k 1).val < n ∧ (k 2).val < 512 := ⟨(k 0).isLt, (k 1).isLt, (k 2).isLt⟩
  rw [dif_pos hlt]
  refine congrArg X (funext fun a => Fin.ext ?_)
  match a with
  | ⟨0, _⟩ => rfl
  | ⟨1, _⟩ => rfl
  | ⟨2, _⟩ => rfl

/-- The gate on slab `b` at row `r`, lane `l`: pass-through for `b` even, row `b / 2` of the gate over the four odd
    slabs for `b` odd (summed in the order 1, 3, 5, 7). -/
def slab (A : Nat → Nat → Nat → EReal) (Mx : Nat → Nat → EReal) (b r l : Nat) : EReal :=
  if b % 2 = 1 then Mx (b / 2) 0 * A 1 r l + Mx (b / 2) 1 * A 3 r l + Mx (b / 2) 2 * A 5 r l + Mx (b / 2) 3 * A 7 r l
  else A b r l

end Cert.GateSpec

end
-- ==== Proof.KernelBlock.lean ====
/-
  What the kernel body leaves in its output block, entry by entry.

  The body sees a block `[8, 512, 512]` of the state (eight slabs × 512 rows × 512 lanes) and the 4×4 gate. It
  copies the even slabs and stores, for each gate row t, the sum  g[t,0]·slab 1 + g[t,1]·slab 3 + g[t,2]·slab 5 +
  g[t,3]·slab 7  (in that order) into slab 2t + 1. Its eight stores tile the output block, and each store's value at
  a row and a lane is `GateSpec.slab` there — so the whole block is (`block_eq`).
-/
import proofs.«137706_j22935125360825_2_alg».proof.Proof.Gen.KernelIdeal.Frame
import proofs.«137706_j22935125360825_2_alg».proof.Proof.GateBlock
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.GateSpec

/-- One slab `[1, 512, 512]` with its unit axis dropped, read at a slab index's row and lane, is the slab's entry. -/
theorem shapeCast_slab (v : Vec Ideal S1x512x512 .f32) (h : S1x512x512.ShapeCasts S512x512) (x : S1x512x512.Idx) :
    shapeCast S512x512 v h (ix2 (n0 := 512) (n1 := 512) ⟨(x 1).val, (x 1).isLt⟩ ⟨(x 2).val, (x 2).isLt⟩) = v x := by
  have hx : (x 0).val < 1 := (x 0).isLt
  refine shapeCast_apply v h _ x ?_
  rw [Shape.rowMajor_val_three, Shape.rowMajor_val_two]
  show ((x 0).val * 512 + (x 1).val) * 512 + (x 2).val = (x 1).val * 512 + (x 2).val
  omega

/-- A gate row applied to four slabs, as the body prints it (each slab's unit axis dropped, each gate entry
    broadcast, products summed left to right, the unit axis put back), read at an entry. -/
theorem row_apply (s0 s1 s2 s3 : Ideal .f32) (v0 v1 v2 v3 : Vec Ideal S1x512x512 .f32) (h : S1x512x512.ShapeCasts S512x512)
    (h' : S512x512.ShapeCasts S1x512x512) (x : S1x512x512.Idx) :
    shapeCast S1x512x512 (addf (addf (addf (mulf (broadcast S512x512 s0) (shapeCast S512x512 v0 h))
        (mulf (broadcast S512x512 s1) (shapeCast S512x512 v1 h))) (mulf (broadcast S512x512 s2) (shapeCast S512x512 v2 h)))
        (mulf (broadcast S512x512 s3) (shapeCast S512x512 v3 h))) h' x
      = s0 * v0 x + s1 * v1 x + s2 * v2 x + s3 * v3 x := by
  have hx : (x 0).val < 1 := (x 0).isLt
  refine (shapeCast_apply _ h' x (ix2 (n0 := 512) (n1 := 512) ⟨(x 1).val, (x 1).isLt⟩ ⟨(x 2).val, (x 2).isLt⟩) ?_).trans ?_
  · rw [Shape.rowMajor_val_three, Shape.rowMajor_val_two]
    show (x 1).val * 512 + (x 2).val = ((x 0).val * 512 + (x 1).val) * 512 + (x 2).val
    omega
  simp only [addf_apply, mulf_apply, broadcast_apply]
  rw [shapeCast_slab v0 h x, shapeCast_slab v1 h x, shapeCast_slab v2 h x, shapeCast_slab v3 h x]

/-- The gate entry the body extracts at row `a`, column `k` of the loaded 4×4 block. -/
theorem scal (X1 : Vec Ideal S4x4 .f32) (a k : Nat) (hs : S4x4.Slices ![a, k] S1x1) (hp : ∀ b, (![0, 0] : Fin S1x1.rank → Nat) b < S1x1.size b) :
    extractAt ![0, 0] (extractStridedSlice (s := S4x4) S1x1 ![a, k] (View.ld X1 r0_0) hs) hp = gate X1 a k := by
  unfold extractAt extractStridedSlice
  exact gate_apply X1 _ a k (by show 0 + 1 * (a + 0) = a; omega) (by show 0 + 1 * (k + 0) = k; omega)

/-- Slab `b` of the loaded block, read at a slab index, is the block's entry at that row and lane. -/
theorem ldslab (X0 : Vec Ideal S8x512x512 .f32) (b : Nat) (inb : ∀ a, (![b, 0, 0] : Fin S8x512x512.rank → Nat) a + S1x512x512.size a ≤ S8x512x512.size a)
    (x : S1x512x512.Idx) : (View.ld X0 (Rect.unit (s := S8x512x512) ![b, 0, 0] S1x512x512.size inb) : Vec Ideal S1x512x512 .f32) x = acc3 X0 b (x 1).val (x 2).val := by
  have hx : (x 0).val < 1 := (x 0).isLt
  exact acc3_apply X0 _ _ _ _ (by show b + 1 * (x 0).val = b; omega) (by show 0 + 1 * (x 1).val = (x 1).val; omega)
    (by show 0 + 1 * (x 2).val = (x 2).val; omega)

/-- A copied slab (its unit axis dropped and put back) is `slab` at an even slab. -/
theorem even_piece (X0 : Vec Ideal S8x512x512 .f32) (X1 : Vec Ideal S4x4 .f32) (b : Nat) (hb : b % 2 = 0)
    (v : Vec Ideal S1x512x512 .f32) (h : S1x512x512.ShapeCasts S512x512) (h' : S512x512.ShapeCasts S1x512x512) (x : S1x512x512.Idx)
    (hv : v x = acc3 X0 b (x 1).val (x 2).val) :
    shapeCast S1x512x512 (shapeCast S512x512 v h) h' x = slab (acc3 X0) (gate X1) b (x 1).val (x 2).val := by
  rw [shapeCast_shapeCast, hv]
  unfold slab
  rw [if_neg (by omega)]

/-- A gate row over the four odd slabs is `slab` at an odd slab. -/
theorem odd_piece (X0 : Vec Ideal S8x512x512 .f32) (X1 : Vec Ideal S4x4 .f32) (b : Nat) (hb : b % 2 = 1)
    (s0 s1 s2 s3 v0 v1 v2 v3 : EReal) (r l : Nat)
    (h0 : s0 = gate X1 (b / 2) 0) (h1 : s1 = gate X1 (b / 2) 1) (h2 : s2 = gate X1 (b / 2) 2) (h3 : s3 = gate X1 (b / 2) 3)
    (e0 : v0 = acc3 X0 1 r l) (e1 : v1 = acc3 X0 3 r l) (e2 : v2 = acc3 X0 5 r l) (e3 : v3 = acc3 X0 7 r l) :
    s0 * v0 + s1 * v1 + s2 * v2 + s3 * v3 = slab (acc3 X0) (gate X1) b r l := by
  unfold slab
  rw [if_pos hb, h0, h1, h2, h3, e0, e1, e2, e3]

/-- THE OUTPUT BLOCK after the body: `slab` of the input block and the gate, at every slab, row and lane. -/
theorem block_eq (X0 : Vec Ideal S8x512x512 .f32) (X1 : Vec Ideal S4x4 .f32) (y : S8x512x512.Idx) :
    out0_2 (F := Ideal) X0 X1 y = slab (acc3 X0) (gate X1) (y 0).val (y 1).val (y 2).val := by
  unfold out0_2
  refine View.canon_apply_of_pieces (Val := Elt Ideal) (fun y => slab (acc3 X0) (gate X1) (y 0).val (y 1).val (y 2).val) _ ?_ y (cover0_2 _ _ _ _ _ _ _ _ y)
  intro p hp
  simp only [List.mem_cons, List.mem_nil_iff, or_false] at hp
  rcases hp with rfl | rfl | rfl | rfl | rfl | rfl | rfl | rfl
  · -- the store to slab 7
    intro x
    have hx : (x 0).val < 1 := (x 0).isLt
    show _ = slab (acc3 X0) (gate X1) (7 + 1 * (x 0).val) (0 + 1 * (x 1).val) (0 + 1 * (x 2).val)
    rw [show 7 + 1 * (x 0).val = 7 by omega, show 0 + 1 * (x 1).val = (x 1).val by omega, show 0 + 1 * (x 2).val = (x 2).val by omega]
    unfold k0_pay2
    refine (row_apply _ _ _ _ _ _ _ _ _ _ x).trans ?_
    exact odd_piece X0 X1 7 (by decide) _ _ _ _ _ _ _ _ (x 1).val (x 2).val (scal X1 3 0 _ _) (scal X1 3 1 _ _) (scal X1 3 2 _ _) (scal X1 3 3 _ _)
      (ldslab X0 1 _ x) (ldslab X0 3 _ x) (ldslab X0 5 _ x) (ldslab X0 7 _ x)
  · -- the store to slab 5
    intro x
    have hx : (x 0).val < 1 := (x 0).isLt
    show _ = slab (acc3 X0) (gate X1) (5 + 1 * (x 0).val) (0 + 1 * (x 1).val) (0 + 1 * (x 2).val)
    rw [show 5 + 1 * (x 0).val = 5 by omega, show 0 + 1 * (x 1).val = (x 1).val by omega, show 0 + 1 * (x 2).val = (x 2).val by omega]
    unfold k0_pay1 k0_pay13 k0_pay14 k0_pay15
    refine (row_apply _ _ _ _ _ _ _ _ _ _ x).trans ?_
    exact odd_piece X0 X1 5 (by decide) _ _ _ _ _ _ _ _ (x 1).val (x 2).val (scal X1 2 0 _ _) (scal X1 2 1 _ _) (scal X1 2 2 _ _) (scal X1 2 3 _ _)
      (ldslab X0 1 _ x) (ldslab X0 3 _ x) (ldslab X0 5 _ x) (ldslab X0 7 _ x)
  · -- the store to slab 3
    intro x
    have hx : (x 0).val < 1 := (x 0).isLt
    show _ = slab (acc3 X0) (gate X1) (3 + 1 * (x 0).val) (0 + 1 * (x 1).val) (0 + 1 * (x 2).val)
    rw [show 3 + 1 * (x 0).val = 3 by omega, show 0 + 1 * (x 1).val = (x 1).val by omega, show 0 + 1 * (x 2).val = (x 2).val by omega]
    unfold k0_pay12 k0_pay10 k0_pay11
    refine (row_apply _ _ _ _ _ _ _ _ _ _ x).trans ?_
    exact odd_piece X0 X1 3 (by decide) _ _ _ _ _ _ _ _ (x 1).val (x 2).val (scal X1 1 0 _ _) (scal X1 1 1 _ _) (scal X1 1 2 _ _) (scal X1 1 3 _ _)
      (ldslab X0 1 _ x) (ldslab X0 3 _ x) (ldslab X0 5 _ x) (ldslab X0 7 _ x)
  · -- the store to slab 1
    intro x
    have hx : (x 0).val < 1 := (x 0).isLt
    show _ = slab (acc3 X0) (gate X1) (1 + 1 * (x 0).val) (0 + 1 * (x 1).val) (0 + 1 * (x 2).val)
    rw [show 1 + 1 * (x 0).val = 1 by omega, show 0 + 1 * (x 1).val = (x 1).val by omega, show 0 + 1 * (x 2).val = (x 2).val by omega]
    unfold k0_pay9 k0_pay7 k0_pay8
    refine (row_apply _ _ _ _ _ _ _ _ _ _ x).trans ?_
    exact odd_piece X0 X1 1 (by decide) _ _ _ _ _ _ _ _ (x 1).val (x 2).val (scal X1 0 0 _ _) (scal X1 0 1 _ _) (scal X1 0 2 _ _) (scal X1 0 3 _ _)
      (ldslab X0 1 _ x) (ldslab X0 3 _ x) (ldslab X0 5 _ x) (ldslab X0 7 _ x)
  · -- the store to slab 6
    intro x
    have hx : (x 0).val < 1 := (x 0).isLt
    show _ = slab (acc3 X0) (gate X1) (6 + 1 * (x 0).val) (0 + 1 * (x 1).val) (0 + 1 * (x 2).val)
    rw [show 6 + 1 * (x 0).val = 6 by omega, show 0 + 1 * (x 1).val = (x 1).val by omega, show 0 + 1 * (x 2).val = (x 2).val by omega]
    unfold k0_pay6
    exact even_piece X0 X1 6 (by decide) _ _ _ x (ldslab X0 6 _ x)
  · -- the store to slab 4
    intro x
    have hx : (x 0).val < 1 := (x 0).isLt
    show _ = slab (acc3 X0) (gate X1) (4 + 1 * (x 0).val) (0 + 1 * (x 1).val) (0 + 1 * (x 2).val)
    rw [show 4 + 1 * (x 0).val = 4 by omega, show 0 + 1 * (x 1).val = (x 1).val by omega, show 0 + 1 * (x 2).val = (x 2).val by omega]
    unfold k0_pay5
    exact even_piece X0 X1 4 (by decide) _ _ _ x (ldslab X0 4 _ x)
  · -- the store to slab 2
    intro x
    have hx : (x 0).val < 1 := (x 0).isLt
    show _ = slab (acc3 X0) (gate X1) (2 + 1 * (x 0).val) (0 + 1 * (x 1).val) (0 + 1 * (x 2).val)
    rw [show 2 + 1 * (x 0).val = 2 by omega, show 0 + 1 * (x 1).val = (x 1).val by omega, show 0 + 1 * (x 2).val = (x 2).val by omega]
    unfold k0_pay4
    exact even_piece X0 X1 2 (by decide) _ _ _ x (ldslab X0 2 _ x)
  · -- the store to slab 0
    intro x
    have hx : (x 0).val < 1 := (x 0).isLt
    show _ = slab (acc3 X0) (gate X1) (0 + 1 * (x 0).val) (0 + 1 * (x 1).val) (0 + 1 * (x 2).val)
    rw [show 0 + 1 * (x 0).val = 0 by omega, show 0 + 1 * (x 1).val = (x 1).val by omega, show 0 + 1 * (x 2).val = (x 2).val by omega]
    unfold k0_pay3
    exact even_piece X0 X1 0 (by decide) _ _ _ x (ldslab X0 0 _ x)

end Cert.KernelIdeal.KValue

end
-- ==== Proof.KernelArray.lean ====
/-
  The kernel's result array, from its blocks.

  The state is reshaped to `[8, 16384, 512]`: entry (b, R, l) is the amplitude at b · 2^23 + R · 512 + l, so the leading
  axis is the slab. Grid point t handles rows 512 t … 512 t + 511 of all eight slabs: its input block's entry (b, r, l) is
  the amplitude at b · 2^23 + (512 t + r) · 512 + l, its gate block is the whole gate, and (by the body's block,
  `KValue.block_eq`) what it writes back is `slab` of those — which is block t of the one array `gateArray`. The 32
  blocks cover the array (row R is in block R / 512), so the array after the run IS `gateArray`; and the final
  reshape to the column `[2^26, 1]` reads it at (p / 2^23, p / 512 mod 16384, p mod 512), giving `GateSpec.G`.
-/
import proofs.«137706_j22935125360825_2_alg».proof.Proof.KernelBlock

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.GateSpec
open Idealize.ShloMosaic.Pipeline (Dat)

variable (m : (ℓ : Loc nD τ sig) → Buf (Elt Ideal) ℓ) (ρ : Dev nD → PrngReg)

/-- Entry (b, R, l) of the reshaped state, as a function of the slab, the row and the lane. -/
def stateAt (x : (⟨2, ![1, 67108864]⟩ : Shape).Idx → EReal) (b R l : Nat) : EReal := amp x (b * 8388608 + R * 512 + l)

/-- The array `[8, 16384, 512]` the kernel should leave: `slab` over the reshaped state. -/
def gateArray (x : (⟨2, ![1, 67108864]⟩ : Shape).Idx → EReal) (g : (⟨2, ![4, 4]⟩ : Shape).Idx → EReal) :
    S8x16384x512.Idx → EReal := fun i => slab (stateAt x) (gate g) (i 0).val (i 1).val (i 2).val

/-! ## The arrays as the region finds them -/

/-- The region's first operand is the state reshaped to `[8, 16384, 512]`. -/
theorem V_state (c : Dev nD) : (V m c main_v0 : S8x16384x512.Idx → EReal)
    = shapeCast S8x16384x512 (m ((c : Thread nD τ).loc main_arg0)) shapeCasts_S1x67108864_S8x16384x512 := by
  show StableHlo.after hostOps0 (fun b => m (c, b)) (Proc.devRef .tc main_v0) = _
  after_results
  rfl

/-- Its entry (b, R, l) is the amplitude at b · 2^23 + R · 512 + l. -/
theorem V_state_apply (c : Dev nD) (i : S8x16384x512.Idx) :
    (V m c main_v0 : S8x16384x512.Idx → EReal) i = stateAt (m ((c : Thread nD τ).loc main_arg0)) (i 0).val (i 1).val (i 2).val := by
  have h0 : (i 0).val < 8 := (i 0).isLt
  have h1 : (i 1).val < 16384 := (i 1).isLt
  have h2 : (i 2).val < 512 := (i 2).isLt
  rw [V_state]
  unfold stateAt
  refine (shapeCast_apply _ shapeCasts_S1x67108864_S8x16384x512 i
    (ix2 ⟨0, Nat.one_pos⟩ ⟨(i 0).val * 8388608 + (i 1).val * 512 + (i 2).val, by omega⟩) ?_).trans (amp_apply _ _ _ rfl)
  rw [Shape.rowMajor_val_two, Shape.rowMajor_val_three]
  show 0 * 67108864 + ((i 0).val * 8388608 + (i 1).val * 512 + (i 2).val) = ((i 0).val * 16384 + (i 1).val) * 512 + (i 2).val
  omega

/-! ## The blocks of a grid point -/

/-- The printed index maps over the grid: the state's and the result's blocks are rows 512 t …, all slabs, all lanes;
    the gate's block is the whole gate. -/
theorem idx_facts : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- Entry (b, r, l) of point t's input block is the reshaped state's entry (b, 512 t + r, l). -/
theorem stateBlock (c : Dev nD) (t : Fin cfg0.N) (b r l : Nat) (hb : b < 8) (hr : r < 512) (hl : l < 512) :
    acc3 (iblk m c 0 t) b r l = stateAt (m ((c : Thread nD τ).loc main_arg0)) b (t.val * 512 + r) l := by
  obtain ⟨e0, e1, e2, -, -, -, -, -⟩ := idx_facts t
  unfold acc3
  rw [dif_pos ⟨hb, hr, hl⟩]
  show (V m c main_v0 : S8x16384x512.Idx → EReal) (((cfg0.win 0).blk t).view.emb (ix3 ⟨b, hb⟩ ⟨r, hr⟩ ⟨l, hl⟩)) = _
  rw [V_state_apply]
  have a0 : ((((cfg0.win 0).blk t).view.emb (ix3 ⟨b, hb⟩ ⟨r, hr⟩ ⟨l, hl⟩)) 0).val = b := by
    show win0_0.index t (0 : Fin 3) * 8 + 1 * b = b; omega
  have a1 : ((((cfg0.win 0).blk t).view.emb (ix3 ⟨b, hb⟩ ⟨r, hr⟩ ⟨l, hl⟩)) 1).val = t.val * 512 + r := by
    show win0_0.index t (1 : Fin 3) * 512 + 1 * r = t.val * 512 + r; omega
  have a2 : ((((cfg0.win 0).blk t).view.emb (ix3 ⟨b, hb⟩ ⟨r, hr⟩ ⟨l, hl⟩)) 2).val = l := by
    show win0_0.index t (2 : Fin 3) * 512 + 1 * l = l; omega
  rw [a0, a1, a2]

/-- Point t's gate block is the gate. -/
theorem gateBlock (c : Dev nD) (t : Fin cfg0.N) : gate (iblk m c 1 t) = gate (m ((c : Thread nD τ).loc main_arg1)) := by
  obtain ⟨-, -, -, e0, e1, -, -, -⟩ := idx_facts t
  funext a k
  unfold gate
  by_cases h : a < 4 ∧ k < 4
  · rw [dif_pos h, dif_pos h]
    show (V m c main_arg1) (((cfg0.win 1).blk t).view.emb (ix2 ⟨a, h.1⟩ ⟨k, h.2⟩)) = _
    rw [V_main_arg1]
    refine congrArg (m ((c : Thread nD τ).loc main_arg1)) (funext fun d => Fin.ext ?_)
    match d with
    | ⟨0, _⟩ => show win0_1.index t (0 : Fin 2) * 4 + 1 * a = a; omega
    | ⟨1, _⟩ => show win0_1.index t (1 : Fin 2) * 4 + 1 * k = k; omega
  · rw [dif_neg h, dif_neg h]

/-- WHAT POINT t WRITES BACK is block t of `gateArray`. -/
theorem flushed_eq (c : Dev nD) (t : Fin cfg0.N) :
    (dats m 0 c).flushed 2 t = ((cfg0.win 2).blk t).view.read (Elt Ideal)
      (gateArray (m ((c : Thread nD τ).loc main_arg0)) (m ((c : Thread nD τ).loc main_arg1))) := by
  show (cfg0.win 2).cut (grid0.coords t) ((dats m 0 c).after 2 t) = _
  rw [after0_2]
  obtain ⟨-, -, -, -, -, e0, e1, e2⟩ := idx_facts t
  funext y
  have hy0 : (y 0).val < 8 := (y 0).isLt
  have hy1 : (y 1).val < 512 := (y 1).isLt
  have hy2 : (y 2).val < 512 := (y 2).isLt
  show out0_2 (iblk m c 0 t) (iblk m c 1 t) y = slab (stateAt (m ((c : Thread nD τ).loc main_arg0))) (gate (m ((c : Thread nD τ).loc main_arg1)))
    (win0_2.index t (0 : Fin 3) * 8 + 1 * (y 0).val) (win0_2.index t (1 : Fin 3) * 512 + 1 * (y 1).val) (win0_2.index t (2 : Fin 3) * 512 + 1 * (y 2).val)
  refine (block_eq _ _ y).trans ?_
  rw [gateBlock m c t, e0, e1, e2, show 0 * 8 + 1 * (y 0).val = (y 0).val by omega, show t.val * 512 + 1 * (y 1).val = t.val * 512 + (y 1).val by omega,
    show 0 * 512 + 1 * (y 2).val = (y 2).val by omega]
  unfold slab
  rw [stateBlock m c t 1 _ _ (by omega) hy1 hy2, stateBlock m c t 3 _ _ (by omega) hy1 hy2, stateBlock m c t 5 _ _ (by omega) hy1 hy2,
    stateBlock m c t 7 _ _ (by omega) hy1 hy2, stateBlock m c t (y 0).val _ _ hy0 hy1 hy2]

/-- An index of the array is in point t's block iff each coordinate is in the block's range on its axis. -/
theorem mem_blk (t : Fin cfg0.N) (i : S8x16384x512.Idx) :
    i ∈ ((cfg0.win 2).blk t).view.set ↔ ∀ a : Fin 3, win0_2.index t a * S8x512x512.size a ≤ (i a).val ∧ (i a).val < win0_2.index t a * S8x512x512.size a + S8x512x512.size a := by
  show i ∈ ((View.whole main_v1).slice (win0_2.rect t)).set ↔ _
  rw [View.set_slice_whole, Rect.mem_set_unit]
  exact Iff.rfl

/-- Every entry is in the block of the point its row belongs to. -/
theorem cover (i : S8x16384x512.Idx) : ∃ t : Fin cfg0.N, (cfg0.win 2).flush t = true ∧ i ∈ ((cfg0.win 2).blk t).view.set := by
  have h0 : (i 0).val < 8 := (i 0).isLt
  have h1 : (i 1).val < 16384 := (i 1).isLt
  have h2 : (i 2).val < 512 := (i 2).isLt
  have hN : grid0.N = 32 := N_0
  let t : Fin cfg0.N := ⟨(i 1).val / 512, by show (i 1).val / 512 < grid0.N; omega⟩
  obtain ⟨-, -, -, -, -, e0, e1, e2⟩ := idx_facts t
  have et : t.val = (i 1).val / 512 := rfl
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- THE ARRAY after the region: `gateArray` of the arguments. -/
theorem final (c : Dev nD) : (dats m 0 c).arrAt 2 cfg0.N
    = gateArray (m ((c : Thread nD τ).loc main_arg0)) (m ((c : Thread nD τ).loc main_arg1)) :=
  (dats m 0 c).arrAt_eq_of_cover 2 _ (fun t _ => flushed_eq m c t) cover

/-! ## The reshape after the region, and the run -/

/-- Rows of 512 lanes within a slab: the row and lane of a position are the position within its slab. -/
theorem row_lane (p : Nat) : p / 512 % 16384 * 512 + p % 512 = p % 8388608 := by
  have h := Nat.mod_mul (x := p) (a := 512) (b := 16384)
  omega

/-- The array reshaped to the column `[2^26, 1]` is the gate's specification. -/
theorem column_eq (x : (⟨2, ![1, 67108864]⟩ : Shape).Idx → EReal) (g : (⟨2, ![4, 4]⟩ : Shape).Idx → EReal) :
    shapeCast S67108864x1 (gateArray x g) shapeCasts_S8x16384x512_S67108864x1 = G x g := by
  funext i
  have hp : (i 0).val < 67108864 := (i 0).isLt
  have h1 : (i 1).val < 1 := (i 1).isLt
  have hrl := row_lane (i 0).val
  have hdiv : (i 0).val / 8388608 * 8388608 + (i 0).val % 8388608 = (i 0).val := Nat.div_add_mod' _ _
  refine (shapeCast_apply _ shapeCasts_S8x16384x512_S67108864x1 i
    (ix3 ⟨(i 0).val / 8388608, by omega⟩ ⟨(i 0).val / 512 % 16384, by omega⟩ ⟨(i 0).val % 512, by omega⟩) ?_).trans ?_
  · rw [Shape.rowMajor_val_three, Shape.rowMajor_val_two]
    show ((i 0).val / 8388608 * 16384 + (i 0).val / 512 % 16384) * 512 + (i 0).val % 512 = (i 0).val * 1 + (i 1).val
    omega
  show slab (stateAt x) (gate g) ((i 0).val / 8388608) ((i 0).val / 512 % 16384) ((i 0).val % 512) = _
  unfold slab G mix stateAt
  by_cases hc : (i 0).val / 8388608 % 2 = 1
  · rw [if_pos hc, if_pos hc, show (i 0).val / 8388608 / 2 = (i 0).val / 16777216 by omega,
      show 1 * 8388608 + (i 0).val / 512 % 16384 * 512 + (i 0).val % 512 = 8388608 + (i 0).val % 8388608 by rw [Nat.add_assoc, hrl],
      show 3 * 8388608 + (i 0).val / 512 % 16384 * 512 + (i 0).val % 512 = 25165824 + (i 0).val % 8388608 by rw [Nat.add_assoc, hrl],
      show 5 * 8388608 + (i 0).val / 512 % 16384 * 512 + (i 0).val % 512 = 41943040 + (i 0).val % 8388608 by rw [Nat.add_assoc, hrl],
      show 7 * 8388608 + (i 0).val / 512 % 16384 * 512 + (i 0).val % 512 = 58720256 + (i 0).val % 8388608 by rw [Nat.add_assoc, hrl]]
  · rw [if_neg hc, if_neg hc]
    exact congrArg (amp x) (by rw [Nat.add_assoc, hrl, hdiv])

/-- What the lines after the region leave in the result buffer: the array after the region, reshaped. -/
theorem tail_eq (c : Dev nD) : Pipeline.afterTail₀ cfgs (dats m) 0 (V0 m) [hostOps1] c main_v2
    = shapeCast S67108864x1 ((dats m 0 c).arrAt 2 cfg0.N) shapeCasts_S8x16384x512_S67108864x1 := by
  unfold Pipeline.afterTail₀
  show StableHlo.after hostOps1 _ (Proc.devRef .tc main_v2) = _
  after_results
  rw [Pipeline.withArrays_arr spec0 launch0.win.arr_inj c _ _ 2]
  rfl

/-- THE KERNEL'S RUN: every weakly fair execution terminates with the result at the gate's specification of the
    arguments, and the arguments unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans
        ((tail_eq m c).trans ((congrArg (fun A => shapeCast S67108864x1 A shapeCasts_S8x16384x512_S67108864x1) (final m c)).trans (column_eq _ _))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KValue

end
-- ==== Proof.lean ====
/-
  A controlled two-qubit gate on a 26-qubit state vector: the kernel against the reference.

  The state is 2^26 amplitudes at positions  p = t · 2^24 + c · 2^23 + r  (t: the two target qubits' bits, c: the
  control qubit's bit, r: the other 23 bits); the gate g is 4×4. Both programs compute

      out[p] = x[p]                                          where c = 0,
      out[p] = g[t,0]·x[2^23 + r] + g[t,1]·x[2^24 + 2^23 + r] + g[t,2]·x[2·2^24 + 2^23 + r] + g[t,3]·x[3·2^24 + 2^23 + r]
                                                             where c = 1      (`GateSpec.G`).

  The reference gets there by reshaping to one axis per qubit, transposing targets to the front and the control to the
  back, multiplying the slice c = 1 by g, scattering it back and undoing the transpose (`RefValue.result_eq`: the two
  transposes are one-bit moves of the flat position, `GateBits`). The kernel cuts the state into eight slabs of 2^23
  (slab 2t + c), copies the even slabs and combines the odd ones, 512 rows of 512 lanes per grid point
  (`KValue.run`: the body's block, the blocks' cover, the reshape after the region). The two sums have the same four
  products in the same order — the reference's is the sum over k = 0, 1, 2, 3 of a 4-term dot product, the kernel's is
  written out left to right — so no law of the extended reals is used and the inputs' finiteness is never opened.
  The frames are the generated ones (the reference's is its generated run); the idealization rewrote nothing.
-/
import proofs.«137706_j22935125360825_2_alg».proof.Defs
import proofs.«137706_j22935125360825_2_alg».proof.Proof.Gen.Kernel
import proofs.«137706_j22935125360825_2_alg».proof.Proof.Gen.Kernel.Skeleton
import proofs.«137706_j22935125360825_2_alg».proof.Proof.Gen.Kernel.Launch
import proofs.«137706_j22935125360825_2_alg».proof.Proof.Gen.Kernel.Points
import proofs.«137706_j22935125360825_2_alg».proof.Proof.Gen.Kernel.Frame
import proofs.«137706_j22935125360825_2_alg».proof.Proof.Gen.KernelIdeal
import proofs.«137706_j22935125360825_2_alg».proof.Proof.Gen.KernelIdeal.Skeleton
import proofs.«137706_j22935125360825_2_alg».proof.Proof.Gen.KernelIdeal.Launch
import proofs.«137706_j22935125360825_2_alg».proof.Proof.Gen.KernelIdeal.Points
import proofs.«137706_j22935125360825_2_alg».proof.Proof.Gen.KernelIdeal.Frame
import proofs.«137706_j22935125360825_2_alg».proof.Proof.Gen.ReferenceIdeal
import proofs.«137706_j22935125360825_2_alg».proof.Proof.Gen.Pre_finite_inputs
import proofs.«137706_j22935125360825_2_alg».proof.Proof.Gen.ReferenceIdeal.Run
import proofs.«137706_j22935125360825_2_alg».proof.Proof.RefValue
import proofs.«137706_j22935125360825_2_alg».proof.Proof.KernelArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the gate's specification of arguments that agree. -/
theorem algebraic : Cert.algebraic_KernelIdeal_ReferenceIdeal := by
  intro m ρ m' ρ' _ hagree
  refine ⟨fun c => Cert.GateSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
